-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S128x256 : Shape := ⟨2, ![128, 256]⟩
abbrev S256 : Shape := ⟨1, ![256]⟩
abbrev S256x4 : Shape := ⟨2, ![256, 4]⟩
abbrev S4 : Shape := ⟨1, ![4]⟩
abbrev S2x16384 : Shape := ⟨2, ![2, 16384]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x4 : S_.BroadcastsInDim S256x4 (![] : Fin 0 → Fin S256x4.rank)
  reducesTo_S256x4_S_d0_1 : S256x4.ReducesTo [0, 1] S_
  bcast_S_S4 : S_.BroadcastsInDim S4 (![] : Fin 0 → Fin S4.rank)
  reducesTo_S4_S_d0 : S4.ReducesTo [0] S_
  bcast_S_S2x16384 : S_.BroadcastsInDim S2x16384 (![] : Fin 0 → Fin S2x16384.rank)
  reducesTo_S2x16384_S_d0_1 : S2x16384.ReducesTo [0, 1] S_

variable [Facts]

def fn_part1 {F : FTy → Type} [FloatOps F] (main_arg4 : FVec F S4 .f32) (main_arg5 : FVec F S2x16384 .f32) (main_v13 : IVec S_ 1) (main_v16 : IVec S256x4 1) : IVec S_ 1 :=
  let main_c_5 : IVec S_ 1 := constantI S_ 1 1#1
  let main_v17 : IVec S_ 1 := (fun x v => Host.reduce IntOp.andi x v reducesTo_S256x4_S_d0_1 h_S_) main_v16 main_c_5
  let main_v18 : IVec S_ 1 := andi main_v13 main_v17
  let main_v19 : FVec F S4 .f32 := Host.absf main_arg4
  let main_cst_6 : FVec F S_ .f32 := constant S_ .f32 0x7F800000#32
  let main_v20 : FVec F S4 .f32 := broadcastInDim S4 ![] bcast_S_S4 main_cst_6
  let main_v21 : IVec S4 1 := cmpf .olt main_v19 main_v20
  let main_c_7 : IVec S_ 1 := constantI S_ 1 1#1
  let main_v22 : IVec S_ 1 := (fun x v => Host.reduce IntOp.andi x v reducesTo_S4_S_d0 h_S_) main_v21 main_c_7
  let main_v23 : IVec S_ 1 := andi main_v18 main_v22
  let main_v24 : FVec F S2x16384 .f32 := Host.absf main_arg5
  let main_cst_8 : FVec F S_ .f32 := constant S_ .f32 0x7F800000#32
  let main_v25 : FVec F S2x16384 .f32 := broadcastInDim S2x16384 ![] bcast_S_S2x16384 main_cst_8
  let main_v26 : IVec S2x16384 1 := cmpf .olt main_v24 main_v25
  let main_c_9 : IVec S_ 1 := constantI S_ 1 1#1
  let main_v27 : IVec S_ 1 := (fun x v => Host.reduce IntOp.andi x v reducesTo_S2x16384_S_d0_1 h_S_) main_v26 main_c_9
  let main_v28 : IVec S_ 1 := andi main_v23 main_v27
  main_v28

def fn {F : FTy → Type} [FloatOps F] (main_arg0 : FVec F S16384x128 .f32) (main_arg1 : FVec F S128x256 .f32) (main_arg2 : FVec F S256 .f32) (main_arg3 : FVec F S256x4 .f32) (main_arg4 : FVec F S4 .f32) (main_arg5 : FVec F S2x16384 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S128x256 .f32 := Host.absf main_arg1
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x4 .f32 := Host.absf main_arg3
  let main_cst_4 : FVec F S_ .f32 := constant S_ .f32 0x7F800000#32
  let main_v15 : FVec F S256x4 .f32 := broadcastInDim S256x4 ![] bcast_S_S256x4 main_cst_4
  let main_v16 : IVec S256x4 1 := cmpf .olt main_v14 main_v15
  fn_part1 (F := F) main_arg4 main_arg5 main_v13 main_v16
-- ==== Kernel.lean ====
abbrev S16384x128 : Shape := ⟨2, ![16384, 128]⟩
abbrev S128x256 : Shape := ⟨2, ![128, 256]⟩
abbrev S256 : Shape := ⟨1, ![256]⟩
abbrev S256x4 : Shape := ⟨2, ![256, 4]⟩
abbrev S4 : Shape := ⟨1, ![4]⟩
abbrev S2x16384 : Shape := ⟨2, ![2, 16384]⟩
abbrev S16384 : Shape := ⟨1, ![16384]⟩
abbrev S1024x128 : Shape := ⟨2, ![1024, 128]⟩
abbrev S2x4096 : Shape := ⟨2, ![2, 4096]⟩
abbrev S4096 : Shape := ⟨1, ![4096]⟩
abbrev S4x1 : Shape := ⟨2, ![4, 1]⟩
abbrev S1024x256 : Shape := ⟨2, ![1024, 256]⟩
abbrev S1x256 : Shape := ⟨2, ![1, 256]⟩
abbrev S4x1024 : Shape := ⟨2, ![4, 1024]⟩
abbrev S2x1024 : Shape := ⟨2, ![2, 1024]⟩
abbrev S1x1024 : Shape := ⟨2, ![1, 1024]⟩
abbrev S1024 : Shape := ⟨1, ![1024]⟩

abbrev nBuf : Space → Nat
  | .hbm => 7
  | .vmem => 16
  | .smem => 0
  | _ => 0

abbrev bufTy : (tb : Table) → Fin (tcTables nBuf tb) → BufTy
  | .hbm, ⟨0, _⟩ => ⟨S16384x128, .f32⟩
  | .hbm, ⟨1, _⟩ => ⟨S128x256, .f32⟩
  | .hbm, ⟨2, _⟩ => ⟨S256, .f32⟩
  | .hbm, ⟨3, _⟩ => ⟨S256x4, .f32⟩
  | .hbm, ⟨4, _⟩ => ⟨S4, .f32⟩
  | .hbm, ⟨5, _⟩ => ⟨S2x16384, .f32⟩
  | .hbm, ⟨6, _⟩ => ⟨S16384, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S128x256, .f32⟩
  | .local _ .vmem, ⟨9, _⟩ => ⟨S256, .f32⟩
  | .local _ .vmem, ⟨10, _⟩ => ⟨S256x4, .f32⟩
  | .local _ .vmem, ⟨11, _⟩ => ⟨S4, .f32⟩
  | .local _ .vmem, ⟨12, _⟩ => ⟨S2x4096, .f32⟩
  | .local _ .vmem, ⟨13, _⟩ => ⟨S2x4096, .f32⟩
  | .local _ .vmem, ⟨14, _⟩ => ⟨S4096, .f32⟩
  | .local _ .vmem, ⟨15, _⟩ => ⟨S4096, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c4_i32 : BitVec 32 := 4#32
  let v0 : BitVec 32 := Scalar.muli arg0 c4_i32
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c4_i32 : BitVec 32 := 4#32
  let v0 : BitVec 32 := Scalar.muli arg0 c4_i32
  let c2_i32 : BitVec 32 := 2#32
  let v1 : BitVec 32 := Scalar.addi v0 c2_i32
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let c4_i32 : BitVec 32 := 4#32
  let v0 : BitVec 32 := Scalar.muli arg0 c4_i32
  let c3_i32 : BitVec 32 := 3#32
  let v1 : BitVec 32 := Scalar.addi v0 c3_i32
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x4 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4096 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  inb_S128x256_S128x256_0_0 : ∀ a, (![0, 0] : Fin 2 → Nat) a + S128x256.size a ≤ S128x256.size a
  h_S128x256 : 0 < S128x256.numel
  inb_S256x4_S256x4_0_0 : ∀ a, (![0, 0] : Fin 2 → Nat) a + S256x4.size a ≤ S256x4.size a
  h_S256x4 : 0 < S256x4.numel
  inb_S256_S256_0 : ∀ a, (![0] : Fin 1 → Nat) a + S256.size a ≤ S256.size a
  h_S256 : 0 < S256.numel
  inb_S4_S4_0 : ∀ a, (![0] : Fin 1 → Nat) a + S4.size a ≤ S4.size a
  h_S4 : 0 < S4.numel
  shapeCasts_S4_S4x1 : S4.ShapeCasts S4x1
  inb_S1024x128_S1024x128_0_0 : ∀ a, (![0, 0] : Fin 2 → Nat) a + S1024x128.size a ≤ S1024x128.size a
  h_S1024x128 : 0 < S1024x128.numel
  shapeCasts_S256_S1x256 : S256.ShapeCasts S1x256
  broadcasts_S1x256_S1024x256 : S1x256.Broadcasts S1024x256
  broadcasts_S4x1_S4x1024 : S4x1.Broadcasts S4x1024
  inb_S2x4096_S2x1024_0_0 : ∀ a, (![0, 0] : Fin 2 → Nat) a + S2x1024.size a ≤ S2x4096.size a
  h_S2x1024 : 0 < S2x1024.numel
  slices_S4x1024_o0_0_S1x1024 : S4x1024.Slices ![0, 0] S1x1024
  slices_S4x1024_o1_0_S1x1024 : S4x1024.Slices ![1, 0] S1x1024
  slices_S4x1024_o2_0_S1x1024 : S4x1024.Slices ![2, 0] S1x1024
  slices_S4x1024_o3_0_S1x1024 : S4x1024.Slices ![3, 0] S1x1024
  slices_S2x1024_o0_0_S1x1024 : S2x1024.Slices ![0, 0] S1x1024
  slices_S2x1024_o1_0_S1x1024 : S2x1024.Slices ![1, 0] S1x1024
  shapeCasts_S1x1024_S1024 : S1x1024.ShapeCasts S1024
  inb_S4096_S1024_0 : ∀ a, (![0] : Fin 1 → Nat) a + S1024.size a ≤ S4096.size a
  h_S1024 : 0 < S1024.numel
  inb_S2x4096_S2x1024_0_1024 : ∀ a, (![0, 1024] : Fin 2 → Nat) a + S2x1024.size a ≤ S2x4096.size a
  inb_S4096_S1024_1024 : ∀ a, (![1024] : Fin 1 → Nat) a + S1024.size a ≤ S4096.size a
  inb_S2x4096_S2x1024_0_2048 : ∀ a, (![0, 2048] : Fin 2 → Nat) a + S2x1024.size a ≤ S2x4096.size a
  inb_S4096_S1024_2048 : ∀ a, (![2048] : Fin 1 → Nat) a + S1024.size a ≤ S4096.size a
  inb_S2x4096_S2x1024_0_3072 : ∀ a, (![0, 3072] : Fin 2 → Nat) a + S2x1024.size a ≤ S2x4096.size a
  inb_S4096_S1024_3072 : ∀ a, (![3072] : Fin 1 → Nat) a + S1024.size a ≤ S4096.size a
  dot_S1024x128_S128x256_S1024x256_1_0_0_1_n_n_wf : DotDims.WF S1024x128 S128x256 S1024x256 [1] [0] [0] [1] [] []
  dot_S256x4_S1024x256_S4x1024_0_1_1_0_n_n_wf : DotDims.WF S256x4 S1024x256 S4x1024 [0] [1] [1] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S16384x128.size a
  hwx0_0 : ∀ i : grid0.Coords, EltTy.bits .f32 = 32 ∨ (Rect.block (s := S16384x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S16384x128.size a
  hwx0_1 : ∀ i : grid0.Coords, EltTy.bits .f32 = 32 ∨ (Rect.block (s := S16384x128) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S16384x128.size a
  hwx0_2 : ∀ i : grid0.Coords, EltTy.bits .f32 = 32 ∨ (Rect.block (s := S16384x128) S1024x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S16384x128.size a
  hwx0_3 : ∀ i : grid0.Coords, EltTy.bits .f32 = 32 ∨ (Rect.block (s := S16384x128) S1024x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .f32 = 32 ∨ (Rect.block (s := S128x256) S128x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x4.size a ≤ S256x4.size a
  hwx0_6 : ∀ i : grid0.Coords, EltTy.bits .f32 = 32 ∨ (Rect.block (s := S256x4) S256x4.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S4.size a ≤ S4.size a
  hwx0_7 : ∀ i : grid0.Coords, EltTy.bits .f32 = 32 ∨ (Rect.block (s := S4) S4.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2x4096.size a ≤ S2x16384.size a
  hwx0_8 : ∀ i : grid0.Coords, EltTy.bits .f32 = 32 ∨ (Rect.block (s := S2x16384) S2x4096.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4096.size a ≤ S16384.size a
  hwx0_9 : ∀ i : grid0.Coords, EltTy.bits .f32 = 32 ∨ (Rect.block (s := S16384) S4096.size (cc0_transform_9 i) (hinb0_9 i)).WholeWords (EltTy.packing .f32)

variable [Facts₀]

def dot_S1024x128_S128x256_S1024x256_1_0_0_1_n_n : DotDims S1024x128 S128x256 S1024x256 where
  lhsContracting := [1]
  rhsContracting := [0]
  lhsNonContracting := [0]
  rhsNonContracting := [1]
  lhsBatch := []
  rhsBatch := []
  wf := dot_S1024x128_S128x256_S1024x256_1_0_0_1_n_n_wf
def dot_S256x4_S1024x256_S4x1024_0_1_1_0_n_n : DotDims S256x4 S1024x256 S4x1024 where
  lhsContracting := [0]
  rhsContracting := [1]
  lhsNonContracting := [1]
  rhsNonContracting := [0]
  lhsBatch := []
  rhsBatch := []
  wf := dot_S256x4_S1024x256_S4x1024_0_1_1_0_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1024x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg0) S1024x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg2) S256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg3) S256x4.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg4) S4.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg5) S2x4096.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v0) S4096.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S16384x128 : Shape := ⟨2, ![16384, 128]⟩
abbrev S128x256 : Shape := ⟨2, ![128, 256]⟩
abbrev S256 : Shape := ⟨1, ![256]⟩
abbrev S256x4 : Shape := ⟨2, ![256, 4]⟩
abbrev S4 : Shape := ⟨1, ![4]⟩
abbrev S2x16384 : Shape := ⟨2, ![2, 16384]⟩
abbrev S16384x256 : Shape := ⟨2, ![16384, 256]⟩
abbrev S1x256 : Shape := ⟨2, ![1, 256]⟩
abbrev S16384x4 : Shape := ⟨2, ![16384, 4]⟩
abbrev S1x4 : Shape := ⟨2, ![1, 4]⟩
abbrev S16384x2 : Shape := ⟨2, ![16384, 2]⟩
abbrev S_ : Shape := ⟨0, ![]⟩
abbrev S16384 : Shape := ⟨1, ![16384]⟩
abbrev S16384x1 : Shape := ⟨2, ![16384, 1]⟩
abbrev S1x16384 : Shape := ⟨2, ![1, 16384]⟩

abbrev nBuf : Space → Nat
  | .hbm => 66
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S128x256, .f32⟩
  | .hbm, ⟨2, _⟩ => ⟨S256, .f32⟩
  | .hbm, ⟨3, _⟩ => ⟨S256x4, .f32⟩
  | .hbm, ⟨4, _⟩ => ⟨S4, .f32⟩
  | .hbm, ⟨5, _⟩ => ⟨S2x16384, .f32⟩
  | .hbm, ⟨6, _⟩ => ⟨S16384x256, .f32⟩
  | .hbm, ⟨7, _⟩ => ⟨S1x256, .f32⟩
  | .hbm, ⟨8, _⟩ => ⟨S16384x256, .f32⟩
  | .hbm, ⟨9, _⟩ => ⟨S16384x256, .f32⟩
  | .hbm, ⟨10, _⟩ => ⟨S16384x256, .f32⟩
  | .hbm, ⟨11, _⟩ => ⟨S16384x4, .f32⟩
  | .hbm, ⟨12, _⟩ => ⟨S1x4, .f32⟩
  | .hbm, ⟨13, _⟩ => ⟨S16384x4, .f32⟩
  | .hbm, ⟨14, _⟩ => ⟨S16384x4, .f32⟩
  | .hbm, ⟨15, _⟩ => ⟨S16384x2, .f32⟩
  | .hbm, ⟨16, _⟩ => ⟨S16384x2, .f32⟩
  | .hbm, ⟨17, _⟩ => ⟨S_, .f32⟩
  | .hbm, ⟨18, _⟩ => ⟨S16384, .f32⟩
  | .hbm, ⟨19, _⟩ => ⟨S_, .f32⟩
  | .hbm, ⟨20, _⟩ => ⟨S16384, .f32⟩
  | .hbm, ⟨21, _⟩ => ⟨S16384, .f32⟩
  | .hbm, ⟨22, _⟩ => ⟨S16384x1, .f32⟩
  | .hbm, ⟨23, _⟩ => ⟨S16384x2, .f32⟩
  | .hbm, ⟨24, _⟩ => ⟨S16384x2, .f32⟩
  | .hbm, ⟨25, _⟩ => ⟨S16384x2, .f32⟩
  | .hbm, ⟨26, _⟩ => ⟨S_, .f32⟩
  | .hbm, ⟨27, _⟩ => ⟨S16384, .f32⟩
  | .hbm, ⟨28, _⟩ => ⟨S16384x1, .f32⟩
  | .hbm, ⟨29, _⟩ => ⟨S16384x2, .f32⟩
  | .hbm, ⟨30, _⟩ => ⟨S16384x2, .f32⟩
  | .hbm, ⟨31, _⟩ => ⟨S16384x1, .f32⟩
  | .hbm, ⟨32, _⟩ => ⟨S16384, .f32⟩
  | .hbm, ⟨33, _⟩ => ⟨S1x16384, .f32⟩
  | .hbm, ⟨34, _⟩ => ⟨S16384, .f32⟩
  | .hbm, ⟨35, _⟩ => ⟨S1x16384, .f32⟩
  | .hbm, ⟨36, _⟩ => ⟨S16384, .f32⟩
  | .hbm, ⟨37, _⟩ => ⟨S16384, .i1⟩
  | .hbm, ⟨38, _⟩ => ⟨S16384x1, .f32⟩
  | .hbm, ⟨39, _⟩ => ⟨S16384, .f32⟩
  | .hbm, ⟨40, _⟩ => ⟨S16384x1, .f32⟩
  | .hbm, ⟨41, _⟩ => ⟨S16384, .f32⟩
  | .hbm, ⟨42, _⟩ => ⟨S_, .f32⟩
  | .hbm, ⟨43, _⟩ => ⟨S16384, .f32⟩
  | .hbm, ⟨44, _⟩ => ⟨S16384, .f32⟩
  | .hbm, ⟨45, _⟩ => ⟨S16384, .f32⟩
  | .hbm, ⟨46, _⟩ => ⟨S16384, .f32⟩
  | .hbm, ⟨47, _⟩ => ⟨S16384, .i1⟩
  | .hbm, ⟨48, _⟩ => ⟨S16384, .f32⟩
  | .hbm, ⟨49, _⟩ => ⟨S16384, .f32⟩
  | .hbm, ⟨50, _⟩ => ⟨S16384, .f32⟩
  | .hbm, ⟨51, _⟩ => ⟨S16384, .f32⟩
  | .hbm, ⟨52, _⟩ => ⟨S16384, .f32⟩
  | .hbm, ⟨53, _⟩ => ⟨S16384, .f32⟩
  | .hbm, ⟨54, _⟩ => ⟨S16384, .f32⟩
  | .hbm, ⟨55, _⟩ => ⟨S16384, .f32⟩
  | .hbm, ⟨56, _⟩ => ⟨S16384, .f32⟩
  | .hbm, ⟨57, _⟩ => ⟨S16384, .f32⟩
  | .hbm, ⟨58, _⟩ => ⟨S16384, .f32⟩
  | .hbm, ⟨59, _⟩ => ⟨S16384, .f32⟩
  | .hbm, ⟨60, _⟩ => ⟨S16384, .f32⟩
  | .hbm, ⟨61, _⟩ => ⟨S16384, .f32⟩
  | .hbm, ⟨62, _⟩ => ⟨S16384, .f32⟩
  | .hbm, ⟨63, _⟩ => ⟨S_, .f32⟩
  | .hbm, ⟨64, _⟩ => ⟨S16384, .f32⟩
  | .hbm, ⟨65, _⟩ => ⟨S16384, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_call0_cst : Ref sig .tc := ⟨.hbm, 42, rfl⟩
abbrev main_call0_v0 : Ref sig .tc := ⟨.hbm, 43, rfl⟩
abbrev main_call0_v1 : Ref sig .tc := ⟨.hbm, 44, rfl⟩
abbrev main_call0_v2 : Ref sig .tc := ⟨.hbm, 45, rfl⟩
abbrev main_call0_v3 : Ref sig .tc := ⟨.hbm, 46, rfl⟩
abbrev main_call0_v4 : Ref sig .tc := ⟨.hbm, 47, rfl⟩
abbrev main_call0_v5 : Ref sig .tc := ⟨.hbm, 48, rfl⟩
abbrev main_call0_v6 : Ref sig .tc := ⟨.hbm, 49, rfl⟩
abbrev main_call0_v7 : Ref sig .tc := ⟨.hbm, 50, rfl⟩
abbrev main_call0_v8 : Ref sig .tc := ⟨.hbm, 51, rfl⟩
abbrev main_call0_v9 : Ref sig .tc := ⟨.hbm, 52, rfl⟩
abbrev main_call0_v10 : Ref sig .tc := ⟨.hbm, 53, rfl⟩
abbrev main_call0_v11 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_2 : Ref sig .tc := ⟨.hbm, 63, rfl⟩
abbrev main_v41 : Ref sig .tc := ⟨.hbm, 64, rfl⟩
abbrev main_v42 : Ref sig .tc := ⟨.hbm, 65, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  bcast_S4_S1x4_1 : S4.BroadcastsInDim S1x4 (![1] : Fin 1 → Fin S1x4.rank)
  bcast_S1x4_S16384x4_0_1 : S1x4.BroadcastsInDim S16384x4 (![0, 1] : Fin 2 → Fin S16384x4.rank)
  slices_S16384x4_S16384x2_0_0 : S16384x4.Slices ![0, 0] S16384x2
  slices_S16384x4_S16384x2_0_2 : S16384x4.Slices ![0, 2] S16384x2
  reducesTo_S16384x2_S16384_d1 : S16384x2.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x2_0_1 : S16384x1.BroadcastsInDim S16384x2 (![0, 1] : Fin 2 → Fin S16384x2.rank)
  slices_S16384x2_S16384x1_0_0 : S16384x2.Slices ![0, 0] S16384x1
  shapeCasts_S16384x1_S16384 : S16384x1.ShapeCasts S16384
  slices_S2x16384_S1x16384_0_0 : S2x16384.Slices ![0, 0] S1x16384
  shapeCasts_S1x16384_S16384 : S1x16384.ShapeCasts S16384
  slices_S2x16384_S1x16384_1_0 : S2x16384.Slices ![1, 0] S1x16384
  slices_S16384x2_S16384x1_0_1 : S16384x2.Slices ![0, 1] S16384x1
  dot_S16384x128_S128x256_S16384x256_1_0_0_1_n_n_wf : DotDims.WF S16384x128 S128x256 S16384x256 [1] [0] [0] [1] [] []
  dot_S16384x256_S256x4_S16384x4_1_0_0_1_n_n_wf : DotDims.WF S16384x256 S256x4 S16384x4 [1] [0] [0] [1] [] []

variable [Facts₀]

def dot_S16384x128_S128x256_S16384x256_1_0_0_1_n_n : DotDims S16384x128 S128x256 S16384x256 where
  lhsContracting := [1]
  rhsContracting := [0]
  lhsNonContracting := [0]
  rhsNonContracting := [1]
  lhsBatch := []
  rhsBatch := []
  wf := dot_S16384x128_S128x256_S16384x256_1_0_0_1_n_n_wf
def dot_S16384x256_S256x4_S16384x4_1_0_0_1_n_n : DotDims S16384x256 S256x4 S16384x4 where
  lhsContracting := [1]
  rhsContracting := [0]
  lhsNonContracting := [0]
  rhsNonContracting := [1]
  lhsBatch := []
  rhsBatch := []
  wf := dot_S16384x256_S256x4_S16384x4_1_0_0_1_n_n_wf

class Facts : Prop extends Facts₀ where

variable [Facts]
-- ==== Proof.KernelFrame.lean ====
/-
  The frame of the kernel program, at any float instance: the one pallas_call runs over its four grid points
  to the end, faults nowhere, and leaves every argument array as it found it; and what the result array
  holds afterwards, block by block.

  The call hands the SAME array x to four input windows (rows 4i, 4i+1, 4i+2, 4i+3 of blocks of 1024 rows at
  grid point i), so the array's full share is dealt into four positive shares, one per window; the other
  five input windows and the output window hold their arrays whole.

  At a grid point the body reads the four x blocks, W1, b1, W2, b2 and the u block, and stores the output
  block of 4096 entries in four pieces of 1024 entries; each piece is a pure function of the blocks read.
-/
import proofs.«153425_g74328704025318_cont_9to1c4b_615_8_alg».proof.Proof.Gen.Kernel.Launch
import proofs.«153425_g74328704025318_cont_9to1c4b_615_8_alg».proof.Proof.Gen.Kernel.Skeleton
import proofs.«153425_g74328704025318_cont_9to1c4b_615_8_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the call -/

/-- The buffers as the call finds them: as launched (the program is the call alone). -/
abbrev V (c : Dev nD) (b : Ref sig .tc) : Buf (Elt F) ((c : Thread nD τ).loc b) := m ((c : Thread nD τ).loc b)

theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-! ## The windows' blocks -/

/-- Window `w`'s block at grid point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every grid point, whether the block was fetched there
    or stayed from the point before (the block index then has not moved): one statement per input window. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev rX : Rect S1024x128 := Rect.unit (s := S1024x128) ![0, 0] S1024x128.size inb_S1024x128_S1024x128_0_0
abbrev rW1 : Rect S128x256 := Rect.unit (s := S128x256) ![0, 0] S128x256.size inb_S128x256_S128x256_0_0
abbrev rB1 : Rect S256 := Rect.unit (s := S256) ![0] S256.size inb_S256_S256_0
abbrev rW2 : Rect S256x4 := Rect.unit (s := S256x4) ![0, 0] S256x4.size inb_S256x4_S256x4_0_0
abbrev rB2 : Rect S4 := Rect.unit (s := S4) ![0] S4.size inb_S4_S4_0
abbrev rU0 : Rect S2x4096 := Rect.unit (s := S2x4096) ![0, 0] S2x1024.size inb_S2x4096_S2x1024_0_0
abbrev rU1 : Rect S2x4096 := Rect.unit (s := S2x4096) ![0, 1024] S2x1024.size inb_S2x4096_S2x1024_0_1024
abbrev rU2 : Rect S2x4096 := Rect.unit (s := S2x4096) ![0, 2048] S2x1024.size inb_S2x4096_S2x1024_0_2048
abbrev rU3 : Rect S2x4096 := Rect.unit (s := S2x4096) ![0, 3072] S2x1024.size inb_S2x4096_S2x1024_0_3072
abbrev rO0 : Rect S4096 := Rect.unit (s := S4096) ![0] S1024.size inb_S4096_S1024_0
abbrev rO1 : Rect S4096 := Rect.unit (s := S4096) ![1024] S1024.size inb_S4096_S1024_1024
abbrev rO2 : Rect S4096 := Rect.unit (s := S4096) ![2048] S1024.size inb_S4096_S1024_2048
abbrev rO3 : Rect S4096 := Rect.unit (s := S4096) ![3072] S1024.size inb_S4096_S1024_3072

/-! ## What the body stores, piece by piece

Each of the four stored pieces of 1024 entries as a function of the values the body loaded: the weights and
biases `v0 v1 v2 v3`, one block `x` of 1024 rows and the matching 2 × 1024 slab `u` of the uniform draws. -/

def piece0 (v0 : Vec F S128x256 .f32) (v1 : Vec F S256x4 .f32) (v2 : Vec F S256 .f32) (v3 : Vec F S4 .f32)
    (x : Vec F S1024x128 .f32) (u : Vec F S2x1024 .f32) : Vec F S1024 .f32 :=
  k0_pay11 (k0_pay4 v0 v1 v2 v3 x) (k0_pay5 v0 v1 v2 v3 x) (k0_pay6 v0 v1 v2 v3 x) (k0_pay7 u) (k0_pay8 u) (k0_pay9 u) (k0_pay10 (F := F))

def piece1 (v0 : Vec F S128x256 .f32) (v1 : Vec F S256x4 .f32) (v2 : Vec F S256 .f32) (v3 : Vec F S4 .f32)
    (x : Vec F S1024x128 .f32) (u : Vec F S2x1024 .f32) : Vec F S1024 .f32 :=
  k0_pay19 (k0_pay13 v0 v1 v2 (k0_pay2 v3) x) (k0_pay14 v0 v1 v2 (k0_pay2 v3) x) (k0_pay15 v0 v1 v2 (k0_pay2 v3) x) (k0_pay16 u) (k0_pay17 u) (k0_pay18 u)

def piece2 (v0 : Vec F S128x256 .f32) (v1 : Vec F S256x4 .f32) (v2 : Vec F S256 .f32) (v3 : Vec F S4 .f32)
    (x : Vec F S1024x128 .f32) (u : Vec F S2x1024 .f32) : Vec F S1024 .f32 :=
  k0_pay25 u (k0_pay21 v0 v1 v2 (k0_pay2 v3) x) (k0_pay22 v0 v1 v2 (k0_pay2 v3) x) (k0_pay23 v0 v1 v2 (k0_pay2 v3) x) (k0_pay24 u)

def piece3 (v0 : Vec F S128x256 .f32) (v1 : Vec F S256x4 .f32) (v2 : Vec F S256 .f32) (v3 : Vec F S4 .f32)
    (x : Vec F S1024x128 .f32) (u : Vec F S2x1024 .f32) : Vec F S1024 .f32 :=
  k0_pay1 u (k0_pay27 v0 v1 v2 (k0_pay2 v3) x) (k0_pay29 v0 v1 v2 (k0_pay2 v3) x) (k0_pay31 v0 v1 v2 (k0_pay2 v3) x)
    (k0_pay32 v0 v1 v2 (k0_pay2 v3) x) (k0_pay33 v0 v1 v2 (k0_pay2 v3) x)

/-- The output window's staging buffer after the body, from the input windows' blocks: its four stores as
    pieces, the last store first. -/
def out0_9 (x0 x1 x2 x3 : Vec F S1024x128 .f32) (w1 : Vec F S128x256 .f32) (b1 : Vec F S256 .f32) (w2 : Vec F S256x4 .f32)
    (b2 : Vec F S4 .f32) (u : Vec F S2x4096 .f32) : Vec F S4096 .f32 :=
  View.canon [
    ⟨rO3, piece3 (View.ld w1 rW1) (View.ld w2 rW2) (View.ld b1 rB1) (View.ld b2 rB2) (View.ld x3 rX) (View.ld u rU3)⟩,
    ⟨rO2, piece2 (View.ld w1 rW1) (View.ld w2 rW2) (View.ld b1 rB1) (View.ld b2 rB2) (View.ld x2 rX) (View.ld u rU2)⟩,
    ⟨rO1, piece1 (View.ld w1 rW1) (View.ld w2 rW2) (View.ld b1 rB1) (View.ld b2 rB2) (View.ld x1 rX) (View.ld u rU1)⟩,
    ⟨rO0, piece0 (View.ld w1 rW1) (View.ld w2 rW2) (View.ld b1 rB1) (View.ld b2 rB2) (View.ld x0 rX) (View.ld u rU0)⟩]

/-- The four stored pieces tile the buffer, so they cover it. -/
theorem cover0_9 (p3 p2 p1 p0 : Vec F S1024 .f32) (y : S4096.Idx) :
    ∃ pc ∈ ([⟨rO3, p3⟩, ⟨rO2, p2⟩, ⟨rO1, p1⟩, ⟨rO0, p0⟩] : List (View.Piece (Elt F) S4096 .f32)), y ∈ pc.1.set :=
  View.cover_of_tiled [⟨rO3, p3⟩, ⟨rO2, p2⟩, ⟨rO1, p1⟩, ⟨rO0, p0⟩] S1024.size (by rfl) y

/-! ## The body's triple -/

set_option maxHeartbeats 4000000 in
/-- The kernel body on whole staging memrefs, the inputs' at read contents and the output's at anything, runs to
    the continuation holding the inputs' as they were and the output's at `out0_9` of the inputs'. -/
theorem sound_kernel (c : Dev nD) (E : Set ℕ) (i : grid0.Coords)
    (arg1 : Memref sig .tc .vmem S1024x128 .f32) (harg1 : arg1.IsWhole) (arg2 : Memref sig .tc .vmem S1024x128 .f32) (harg2 : arg2.IsWhole)
    (arg3 : Memref sig .tc .vmem S1024x128 .f32) (harg3 : arg3.IsWhole) (arg4 : Memref sig .tc .vmem S1024x128 .f32) (harg4 : arg4.IsWhole)
    (arg5 : Memref sig .tc .vmem S128x256 .f32) (harg5 : arg5.IsWhole) (arg6 : Memref sig .tc .vmem S256 .f32) (harg6 : arg6.IsWhole)
    (arg7 : Memref sig .tc .vmem S256x4 .f32) (harg7 : arg7.IsWhole) (arg8 : Memref sig .tc .vmem S4 .f32) (harg8 : arg8.IsWhole)
    (arg9 : Memref sig .tc .vmem S2x4096 .f32) (harg9 : arg9.IsWhole) (arg10 : Memref sig .tc .vmem S4096 .f32) (harg10 : arg10.IsWhole)
    (x0 x1 x2 x3 : Vec F S1024x128 .f32) (w1 : Vec F S128x256 .f32) (b1 : Vec F S256 .f32) (w2 : Vec F S256x4 .f32)
    (b2 : Vec F S4 .f32) (u : Vec F S2x4096 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare w1 ∗ owns (c : Thread nD τ) arg6 fullShare b1
        ∗ owns (c : Thread nD τ) arg7 fullShare w2 ∗ owns (c : Thread nD τ) arg8 fullShare b2 ∗ owns (c : Thread nD τ) arg9 fullShare u
        ∗ (∃ d, owns (c : Thread nD τ) arg10 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare w1 ∗ owns (c : Thread nD τ) arg6 fullShare b1
            ∗ owns (c : Thread nD τ) arg7 fullShare w2 ∗ owns (c : Thread nD τ) arg8 fullShare b2 ∗ owns (c : Thread nD τ) arg9 fullShare u
            ∗ owns (c : Thread nD τ) arg10 fullShare (out0_9 x0 x1 x2 x3 w1 b1 w2 b2 u)) -∗ K ⟨⟩))
      ⊢ wp frame (wpE (defs₀ (F := F)) Variants.none c none) E
          (cc0__body i arg1 harg1 arg2 harg2 arg3 harg3 arg4 harg4 arg5 harg5 arg6 harg6 arg7 harg7 arg8 harg8 arg9 harg9 arg10 harg10) K := by
  simp only [cc0__body_eq_skeleton]; unfold cc0__body_skel
  simp only [k0_part1_eq_skeleton, k0_part2_eq_skeleton, k0_part3_eq_skeleton, k0_part4_eq_skeleton]
  unfold k0_part1_skel k0_part2_skel k0_part3_skel k0_part4_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf1 hf2 hf3 hf4 hf5 hf6 hf7 hf8 hf9
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (cover0_9 _ _ _ _)

end Cert.Kernel.Frame

end
-- ==== Proof.KernelRun.lean ====
/-
  The run of the kernel program: the proof data of its one pallas_call (what each window's staging buffer holds
  after the body at each grid point; the share of x each of the four x windows holds), the body's obligation at
  a generic grid point, the dealing of the arrays at the call's entry, and from these the run of the whole
  program: it terminates, faults nowhere, and every window's array ends at what the write-backs make of it —
  an input array as it was, the result array its entry contents overwritten block by block.
-/
import proofs.«153425_g74328704025318_cont_9to1c4b_615_8_alg».proof.Proof.KernelFrame

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The proof data of the pipeline on core `c`: the arrays as the call finds them; after the body at point `t`
    each input's buffer at its block and the output's at `out0_9` of the input blocks; no invariant beyond the
    windows; nothing owed; the array x dealt in four quarter shares to its four windows, every other array whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => out0_9 (iblk m c 0 t) (iblk m c 1 t) (iblk m c 2 t) (iblk m c 3 t) (iblk m c 4 t) (iblk m c 5 t) (iblk m c 6 t) (iblk m c 7 t) (iblk m c 8 t)
  Φ _ := iprop(emp)
  q w := match w with
    | ⟨0, _⟩ => fullShare.left.left
    | ⟨1, _⟩ => fullShare.left.right
    | ⟨2, _⟩ => fullShare.right.left
    | ⟨3, _⟩ => fullShare.right.right
    | ⟨4, _⟩ => fullShare
    | ⟨5, _⟩ => fullShare
    | ⟨6, _⟩ => fullShare
    | ⟨7, _⟩ => fullShare
    | ⟨8, _⟩ => fullShare
    | ⟨9, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t
    = out0_9 (iblk m c 0 t) (iblk m c 1 t) (iblk m c 2 t) (iblk m c 3 t) (iblk m c 4 t) (iblk m c 5 t) (iblk m c 6 t) (iblk m c 7 t) (iblk m c 8 t) := by
  dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem body_obligation (c : Dev nD) : BodyObligation (dats (F := F) m 0 c) (defs₀ (F := F)) Variants.none () Set.univ := fun t => by
  rw [bigSep_W0, bigSep_W0]
  exact sound_body m c t

/-! ## The arrays at the call's entry -/

/-- The distinct buffers behind the windows' arrays, one by one. -/
theorem arrBufs_eq (c : Dev nD) : (Pipeline.arrBufs (Ix := Unit) (Name := ℕ) (U := UR sig nD τ) (Lvl := ℕ) spec0 c (V m c) : sProp 𝕄)
    = iprop(((c.tc : Thread nD τ).loc main_arg0 ↦{fullShare} V m c main_arg0) ∗ ((c.tc : Thread nD τ).loc main_arg1 ↦{fullShare} V m c main_arg1)
      ∗ ((c.tc : Thread nD τ).loc main_arg2 ↦{fullShare} V m c main_arg2) ∗ ((c.tc : Thread nD τ).loc main_arg3 ↦{fullShare} V m c main_arg3)
      ∗ ((c.tc : Thread nD τ).loc main_arg4 ↦{fullShare} V m c main_arg4) ∗ ((c.tc : Thread nD τ).loc main_arg5 ↦{fullShare} V m c main_arg5)
      ∗ ((c.tc : Thread nD τ).loc main_v0 ↦{fullShare} V m c main_v0)) :=
  bigSep_eq_bigSepL_of_eq [main_arg0, main_arg1, main_arg2, main_arg3, main_arg4, main_arg5, main_v0] (by decide) (by decide) _

theorem hsplit (c : Dev nD) : (Pipeline.arrBufs (Ix := Unit) (Name := ℕ) (U := UR sig nD τ) (Lvl := ℕ) spec0 c (V m c) : sProp 𝕄)
    ⊢ (dats m 0 c).arrays ((dats m 0 c).arrAt · 0) := by
  rw [arrBufs_eq]
  unfold Dat.arrays
  rw [bigSep_W0]
  simp only [View.set_whole]
  rw [show (dats m 0 c).share 0 = fullShare.left.left from rfl, show (dats m 0 c).share 1 = fullShare.left.right from rfl,
    show (dats m 0 c).share 2 = fullShare.right.left from rfl, show (dats m 0 c).share 3 = fullShare.right.right from rfl,
    show (dats m 0 c).share 4 = fullShare from rfl, show (dats m 0 c).share 5 = fullShare from rfl,
    show (dats m 0 c).share 6 = fullShare from rfl, show (dats m 0 c).share 7 = fullShare from rfl,
    show (dats m 0 c).share 8 = fullShare from rfl, show (dats m 0 c).share 9 = fullShare from rfl]
  iintro ⟨H0, H1, H2, H3, H4, H5, H6⟩
  ihave H0' := (pointsTo_share (PosShare.mem_left_op_right fullShare)).1 $$ H0
  icases H0' with ⟨H0l, H0r⟩
  ihave H0l' := (pointsTo_share (PosShare.mem_left_op_right fullShare.left)).1 $$ H0l
  icases H0l' with ⟨H00, H01⟩
  ihave H0r' := (pointsTo_share (PosShare.mem_left_op_right fullShare.right)).1 $$ H0r
  icases H0r' with ⟨H02, H03⟩
  isplitl [H00]; · iexact H00
  isplitl [H01]; · iexact H01
  isplitl [H02]; · iexact H02
  isplitl [H03]; · iexact H03
  isplitl [H1]; · iexact H1
  isplitl [H2]; · iexact H2
  isplitl [H3]; · iexact H3
  isplitl [H4]; · iexact H4
  isplitl [H5]; · iexact H5
  iexact H6

/-! ## The run -/

set_option backward.isDefEq.respectTransparency.types false in
/-- From any memory with zero counters, every weakly fair execution of the program terminates, and every final state
    has each window's array at what the write-backs make of its entry contents. -/
theorem run_main : θ_run defs (onTc (τ := τ) (main (F := F))) (s₀ m ρ)
    (fun r => ∀ c : Dev nD, ∀ w, r.2.mem ((spec0 w).arr.view.loc (c.tc : Thread nD τ)) = (dats m 0 c).arrAt w cfg0.N) :=
  Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj))
    (hu₀ := .rfl)
    (V := V m) (hmain := hmain m Variants.none) (hsplit := hsplit m)
    (X := fun _ => iprop(emp)) (Y := fun _ => iprop(emp)) (Z := fun _ => iprop(emp))
    (hX := fun c => by
      rw [unscopedRest0_eq]
      iintro -
      isplitl [] <;> iempintro)
    (hin := fun c => by
      show _ ⊢ (iprop(emp) : sProp 𝕄)
      iintro -
      iempintro)
    (hout := fun c => by
      rw [scopedRest0_eq]
      iintro -
      isplitl [] <;> iempintro)
    (QY := fun _ _ => True)
    (hY := fun c s' => by
      iintro ⟨-, -, HSI⟩
      imodintro
      isplitr
      · ipureintro; trivial
      iexact HSI)
    (hQ := fun s h c => (h c).1)

/-- The same run read at the program's buffers: the result array named, each argument array unchanged. -/
theorem run_named : θ_run defs (onTc (τ := τ) (main (F := F))) ⟨m, fun _ => 0, ρ⟩ (fun r => ∀ c : Dev nD,
      r.2.mem ((c.tc : Thread nD τ).loc main_v0) = (dats m 0 c).arrAt 9 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨h c 9,
      (h c 0).trans (((dats m 0 c).arrAt_in 0 rfl _).trans (A_eq m c 0)),
      (h c 4).trans (((dats m 0 c).arrAt_in 4 rfl _).trans (A_eq m c 4)),
      (h c 5).trans (((dats m 0 c).arrAt_in 5 rfl _).trans (A_eq m c 5)),
      (h c 6).trans (((dats m 0 c).arrAt_in 6 rfl _).trans (A_eq m c 6)),
      (h c 7).trans (((dats m 0 c).arrAt_in 7 rfl _).trans (A_eq m c 7)),
      (h c 8).trans (((dats m 0 c).arrAt_in 8 rfl _).trans (A_eq m c 8))⟩) (run_main m ρ)

/-- The frame: the program runs to the end and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run_named m ρ)

end Cert.Kernel.Frame

end
-- ==== Proof.KernelIdealFrame.lean ====
/-
  The frame of the kernel program, at any float instance: the one pallas_call runs over its four grid points
  to the end, faults nowhere, and leaves every argument array as it found it; and what the result array
  holds afterwards, block by block.

  The call hands the SAME array x to four input windows (rows 4i, 4i+1, 4i+2, 4i+3 of blocks of 1024 rows at
  grid point i), so the array's full share is dealt into four positive shares, one per window; the other
  five input windows and the output window hold their arrays whole.

  At a grid point the body reads the four x blocks, W1, b1, W2, b2 and the u block, and stores the output
  block of 4096 entries in four pieces of 1024 entries; each piece is a pure function of the blocks read.
-/
import proofs.«153425_g74328704025318_cont_9to1c4b_615_8_alg».proof.Proof.Gen.KernelIdeal.Launch
import proofs.«153425_g74328704025318_cont_9to1c4b_615_8_alg».proof.Proof.Gen.KernelIdeal.Skeleton
import proofs.«153425_g74328704025318_cont_9to1c4b_615_8_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the call -/

/-- The buffers as the call finds them: as launched (the program is the call alone). -/
abbrev V (c : Dev nD) (b : Ref sig .tc) : Buf (Elt F) ((c : Thread nD τ).loc b) := m ((c : Thread nD τ).loc b)

theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-! ## The windows' blocks -/

/-- Window `w`'s block at grid point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every grid point, whether the block was fetched there
    or stayed from the point before (the block index then has not moved): one statement per input window. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev rX : Rect S1024x128 := Rect.unit (s := S1024x128) ![0, 0] S1024x128.size inb_S1024x128_S1024x128_0_0
abbrev rW1 : Rect S128x256 := Rect.unit (s := S128x256) ![0, 0] S128x256.size inb_S128x256_S128x256_0_0
abbrev rB1 : Rect S256 := Rect.unit (s := S256) ![0] S256.size inb_S256_S256_0
abbrev rW2 : Rect S256x4 := Rect.unit (s := S256x4) ![0, 0] S256x4.size inb_S256x4_S256x4_0_0
abbrev rB2 : Rect S4 := Rect.unit (s := S4) ![0] S4.size inb_S4_S4_0
abbrev rU0 : Rect S2x4096 := Rect.unit (s := S2x4096) ![0, 0] S2x1024.size inb_S2x4096_S2x1024_0_0
abbrev rU1 : Rect S2x4096 := Rect.unit (s := S2x4096) ![0, 1024] S2x1024.size inb_S2x4096_S2x1024_0_1024
abbrev rU2 : Rect S2x4096 := Rect.unit (s := S2x4096) ![0, 2048] S2x1024.size inb_S2x4096_S2x1024_0_2048
abbrev rU3 : Rect S2x4096 := Rect.unit (s := S2x4096) ![0, 3072] S2x1024.size inb_S2x4096_S2x1024_0_3072
abbrev rO0 : Rect S4096 := Rect.unit (s := S4096) ![0] S1024.size inb_S4096_S1024_0
abbrev rO1 : Rect S4096 := Rect.unit (s := S4096) ![1024] S1024.size inb_S4096_S1024_1024
abbrev rO2 : Rect S4096 := Rect.unit (s := S4096) ![2048] S1024.size inb_S4096_S1024_2048
abbrev rO3 : Rect S4096 := Rect.unit (s := S4096) ![3072] S1024.size inb_S4096_S1024_3072

/-! ## What the body stores, piece by piece

Each of the four stored pieces of 1024 entries as a function of the values the body loaded: the weights and
biases `v0 v1 v2 v3`, one block `x` of 1024 rows and the matching 2 × 1024 slab `u` of the uniform draws. -/

def piece0 (v0 : Vec F S128x256 .f32) (v1 : Vec F S256x4 .f32) (v2 : Vec F S256 .f32) (v3 : Vec F S4 .f32)
    (x : Vec F S1024x128 .f32) (u : Vec F S2x1024 .f32) : Vec F S1024 .f32 :=
  k0_pay11 (k0_pay4 v0 v1 v2 v3 x) (k0_pay5 v0 v1 v2 v3 x) (k0_pay6 v0 v1 v2 v3 x) (k0_pay7 u) (k0_pay8 u) (k0_pay9 u) (k0_pay10 (F := F))

def piece1 (v0 : Vec F S128x256 .f32) (v1 : Vec F S256x4 .f32) (v2 : Vec F S256 .f32) (v3 : Vec F S4 .f32)
    (x : Vec F S1024x128 .f32) (u : Vec F S2x1024 .f32) : Vec F S1024 .f32 :=
  k0_pay19 (k0_pay13 v0 v1 v2 (k0_pay2 v3) x) (k0_pay14 v0 v1 v2 (k0_pay2 v3) x) (k0_pay15 v0 v1 v2 (k0_pay2 v3) x) (k0_pay16 u) (k0_pay17 u) (k0_pay18 u)

def piece2 (v0 : Vec F S128x256 .f32) (v1 : Vec F S256x4 .f32) (v2 : Vec F S256 .f32) (v3 : Vec F S4 .f32)
    (x : Vec F S1024x128 .f32) (u : Vec F S2x1024 .f32) : Vec F S1024 .f32 :=
  k0_pay25 u (k0_pay21 v0 v1 v2 (k0_pay2 v3) x) (k0_pay22 v0 v1 v2 (k0_pay2 v3) x) (k0_pay23 v0 v1 v2 (k0_pay2 v3) x) (k0_pay24 u)

def piece3 (v0 : Vec F S128x256 .f32) (v1 : Vec F S256x4 .f32) (v2 : Vec F S256 .f32) (v3 : Vec F S4 .f32)
    (x : Vec F S1024x128 .f32) (u : Vec F S2x1024 .f32) : Vec F S1024 .f32 :=
  k0_pay1 u (k0_pay27 v0 v1 v2 (k0_pay2 v3) x) (k0_pay29 v0 v1 v2 (k0_pay2 v3) x) (k0_pay31 v0 v1 v2 (k0_pay2 v3) x)
    (k0_pay32 v0 v1 v2 (k0_pay2 v3) x) (k0_pay33 v0 v1 v2 (k0_pay2 v3) x)

/-- The output window's staging buffer after the body, from the input windows' blocks: its four stores as
    pieces, the last store first. -/
def out0_9 (x0 x1 x2 x3 : Vec F S1024x128 .f32) (w1 : Vec F S128x256 .f32) (b1 : Vec F S256 .f32) (w2 : Vec F S256x4 .f32)
    (b2 : Vec F S4 .f32) (u : Vec F S2x4096 .f32) : Vec F S4096 .f32 :=
  View.canon [
    ⟨rO3, piece3 (View.ld w1 rW1) (View.ld w2 rW2) (View.ld b1 rB1) (View.ld b2 rB2) (View.ld x3 rX) (View.ld u rU3)⟩,
    ⟨rO2, piece2 (View.ld w1 rW1) (View.ld w2 rW2) (View.ld b1 rB1) (View.ld b2 rB2) (View.ld x2 rX) (View.ld u rU2)⟩,
    ⟨rO1, piece1 (View.ld w1 rW1) (View.ld w2 rW2) (View.ld b1 rB1) (View.ld b2 rB2) (View.ld x1 rX) (View.ld u rU1)⟩,
    ⟨rO0, piece0 (View.ld w1 rW1) (View.ld w2 rW2) (View.ld b1 rB1) (View.ld b2 rB2) (View.ld x0 rX) (View.ld u rU0)⟩]

/-- The four stored pieces tile the buffer, so they cover it. -/
theorem cover0_9 (p3 p2 p1 p0 : Vec F S1024 .f32) (y : S4096.Idx) :
    ∃ pc ∈ ([⟨rO3, p3⟩, ⟨rO2, p2⟩, ⟨rO1, p1⟩, ⟨rO0, p0⟩] : List (View.Piece (Elt F) S4096 .f32)), y ∈ pc.1.set :=
  View.cover_of_tiled [⟨rO3, p3⟩, ⟨rO2, p2⟩, ⟨rO1, p1⟩, ⟨rO0, p0⟩] S1024.size (by rfl) y

/-! ## The body's triple -/

set_option maxHeartbeats 4000000 in
/-- The kernel body on whole staging memrefs, the inputs' at read contents and the output's at anything, runs to
    the continuation holding the inputs' as they were and the output's at `out0_9` of the inputs'. -/
theorem sound_kernel (c : Dev nD) (E : Set ℕ) (i : grid0.Coords)
    (arg1 : Memref sig .tc .vmem S1024x128 .f32) (harg1 : arg1.IsWhole) (arg2 : Memref sig .tc .vmem S1024x128 .f32) (harg2 : arg2.IsWhole)
    (arg3 : Memref sig .tc .vmem S1024x128 .f32) (harg3 : arg3.IsWhole) (arg4 : Memref sig .tc .vmem S1024x128 .f32) (harg4 : arg4.IsWhole)
    (arg5 : Memref sig .tc .vmem S128x256 .f32) (harg5 : arg5.IsWhole) (arg6 : Memref sig .tc .vmem S256 .f32) (harg6 : arg6.IsWhole)
    (arg7 : Memref sig .tc .vmem S256x4 .f32) (harg7 : arg7.IsWhole) (arg8 : Memref sig .tc .vmem S4 .f32) (harg8 : arg8.IsWhole)
    (arg9 : Memref sig .tc .vmem S2x4096 .f32) (harg9 : arg9.IsWhole) (arg10 : Memref sig .tc .vmem S4096 .f32) (harg10 : arg10.IsWhole)
    (x0 x1 x2 x3 : Vec F S1024x128 .f32) (w1 : Vec F S128x256 .f32) (b1 : Vec F S256 .f32) (w2 : Vec F S256x4 .f32)
    (b2 : Vec F S4 .f32) (u : Vec F S2x4096 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare w1 ∗ owns (c : Thread nD τ) arg6 fullShare b1
        ∗ owns (c : Thread nD τ) arg7 fullShare w2 ∗ owns (c : Thread nD τ) arg8 fullShare b2 ∗ owns (c : Thread nD τ) arg9 fullShare u
        ∗ (∃ d, owns (c : Thread nD τ) arg10 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare w1 ∗ owns (c : Thread nD τ) arg6 fullShare b1
            ∗ owns (c : Thread nD τ) arg7 fullShare w2 ∗ owns (c : Thread nD τ) arg8 fullShare b2 ∗ owns (c : Thread nD τ) arg9 fullShare u
            ∗ owns (c : Thread nD τ) arg10 fullShare (out0_9 x0 x1 x2 x3 w1 b1 w2 b2 u)) -∗ K ⟨⟩))
      ⊢ wp frame (wpE (defs₀ (F := F)) Variants.none c none) E
          (cc0__body i arg1 harg1 arg2 harg2 arg3 harg3 arg4 harg4 arg5 harg5 arg6 harg6 arg7 harg7 arg8 harg8 arg9 harg9 arg10 harg10) K := by
  simp only [cc0__body_eq_skeleton]; unfold cc0__body_skel
  simp only [k0_part1_eq_skeleton, k0_part2_eq_skeleton, k0_part3_eq_skeleton, k0_part4_eq_skeleton]
  unfold k0_part1_skel k0_part2_skel k0_part3_skel k0_part4_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf1 hf2 hf3 hf4 hf5 hf6 hf7 hf8 hf9
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (cover0_9 _ _ _ _)

end Cert.KernelIdeal.Frame

end
-- ==== Proof.KernelIdealRun.lean ====
/-
  The run of the kernel program: the proof data of its one pallas_call (what each window's staging buffer holds
  after the body at each grid point; the share of x each of the four x windows holds), the body's obligation at
  a generic grid point, the dealing of the arrays at the call's entry, and from these the run of the whole
  program: it terminates, faults nowhere, and every window's array ends at what the write-backs make of it —
  an input array as it was, the result array its entry contents overwritten block by block.
-/
import proofs.«153425_g74328704025318_cont_9to1c4b_615_8_alg».proof.Proof.KernelIdealFrame

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The proof data of the pipeline on core `c`: the arrays as the call finds them; after the body at point `t`
    each input's buffer at its block and the output's at `out0_9` of the input blocks; no invariant beyond the
    windows; nothing owed; the array x dealt in four quarter shares to its four windows, every other array whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => out0_9 (iblk m c 0 t) (iblk m c 1 t) (iblk m c 2 t) (iblk m c 3 t) (iblk m c 4 t) (iblk m c 5 t) (iblk m c 6 t) (iblk m c 7 t) (iblk m c 8 t)
  Φ _ := iprop(emp)
  q w := match w with
    | ⟨0, _⟩ => fullShare.left.left
    | ⟨1, _⟩ => fullShare.left.right
    | ⟨2, _⟩ => fullShare.right.left
    | ⟨3, _⟩ => fullShare.right.right
    | ⟨4, _⟩ => fullShare
    | ⟨5, _⟩ => fullShare
    | ⟨6, _⟩ => fullShare
    | ⟨7, _⟩ => fullShare
    | ⟨8, _⟩ => fullShare
    | ⟨9, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t
    = out0_9 (iblk m c 0 t) (iblk m c 1 t) (iblk m c 2 t) (iblk m c 3 t) (iblk m c 4 t) (iblk m c 5 t) (iblk m c 6 t) (iblk m c 7 t) (iblk m c 8 t) := by
  dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem body_obligation (c : Dev nD) : BodyObligation (dats (F := F) m 0 c) (defs₀ (F := F)) Variants.none () Set.univ := fun t => by
  rw [bigSep_W0, bigSep_W0]
  exact sound_body m c t

/-! ## The arrays at the call's entry -/

/-- The distinct buffers behind the windows' arrays, one by one. -/
theorem arrBufs_eq (c : Dev nD) : (Pipeline.arrBufs (Ix := Unit) (Name := ℕ) (U := UR sig nD τ) (Lvl := ℕ) spec0 c (V m c) : sProp 𝕄)
    = iprop(((c.tc : Thread nD τ).loc main_arg0 ↦{fullShare} V m c main_arg0) ∗ ((c.tc : Thread nD τ).loc main_arg1 ↦{fullShare} V m c main_arg1)
      ∗ ((c.tc : Thread nD τ).loc main_arg2 ↦{fullShare} V m c main_arg2) ∗ ((c.tc : Thread nD τ).loc main_arg3 ↦{fullShare} V m c main_arg3)
      ∗ ((c.tc : Thread nD τ).loc main_arg4 ↦{fullShare} V m c main_arg4) ∗ ((c.tc : Thread nD τ).loc main_arg5 ↦{fullShare} V m c main_arg5)
      ∗ ((c.tc : Thread nD τ).loc main_v0 ↦{fullShare} V m c main_v0)) :=
  bigSep_eq_bigSepL_of_eq [main_arg0, main_arg1, main_arg2, main_arg3, main_arg4, main_arg5, main_v0] (by decide) (by decide) _

theorem hsplit (c : Dev nD) : (Pipeline.arrBufs (Ix := Unit) (Name := ℕ) (U := UR sig nD τ) (Lvl := ℕ) spec0 c (V m c) : sProp 𝕄)
    ⊢ (dats m 0 c).arrays ((dats m 0 c).arrAt · 0) := by
  rw [arrBufs_eq]
  unfold Dat.arrays
  rw [bigSep_W0]
  simp only [View.set_whole]
  rw [show (dats m 0 c).share 0 = fullShare.left.left from rfl, show (dats m 0 c).share 1 = fullShare.left.right from rfl,
    show (dats m 0 c).share 2 = fullShare.right.left from rfl, show (dats m 0 c).share 3 = fullShare.right.right from rfl,
    show (dats m 0 c).share 4 = fullShare from rfl, show (dats m 0 c).share 5 = fullShare from rfl,
    show (dats m 0 c).share 6 = fullShare from rfl, show (dats m 0 c).share 7 = fullShare from rfl,
    show (dats m 0 c).share 8 = fullShare from rfl, show (dats m 0 c).share 9 = fullShare from rfl]
  iintro ⟨H0, H1, H2, H3, H4, H5, H6⟩
  ihave H0' := (pointsTo_share (PosShare.mem_left_op_right fullShare)).1 $$ H0
  icases H0' with ⟨H0l, H0r⟩
  ihave H0l' := (pointsTo_share (PosShare.mem_left_op_right fullShare.left)).1 $$ H0l
  icases H0l' with ⟨H00, H01⟩
  ihave H0r' := (pointsTo_share (PosShare.mem_left_op_right fullShare.right)).1 $$ H0r
  icases H0r' with ⟨H02, H03⟩
  isplitl [H00]; · iexact H00
  isplitl [H01]; · iexact H01
  isplitl [H02]; · iexact H02
  isplitl [H03]; · iexact H03
  isplitl [H1]; · iexact H1
  isplitl [H2]; · iexact H2
  isplitl [H3]; · iexact H3
  isplitl [H4]; · iexact H4
  isplitl [H5]; · iexact H5
  iexact H6

/-! ## The run -/

set_option backward.isDefEq.respectTransparency.types false in
/-- From any memory with zero counters, every weakly fair execution of the program terminates, and every final state
    has each window's array at what the write-backs make of its entry contents. -/
theorem run_main : θ_run defs (onTc (τ := τ) (main (F := F))) (s₀ m ρ)
    (fun r => ∀ c : Dev nD, ∀ w, r.2.mem ((spec0 w).arr.view.loc (c.tc : Thread nD τ)) = (dats m 0 c).arrAt w cfg0.N) :=
  Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj))
    (hu₀ := .rfl)
    (V := V m) (hmain := hmain m Variants.none) (hsplit := hsplit m)
    (X := fun _ => iprop(emp)) (Y := fun _ => iprop(emp)) (Z := fun _ => iprop(emp))
    (hX := fun c => by
      rw [unscopedRest0_eq]
      iintro -
      isplitl [] <;> iempintro)
    (hin := fun c => by
      show _ ⊢ (iprop(emp) : sProp 𝕄)
      iintro -
      iempintro)
    (hout := fun c => by
      rw [scopedRest0_eq]
      iintro -
      isplitl [] <;> iempintro)
    (QY := fun _ _ => True)
    (hY := fun c s' => by
      iintro ⟨-, -, HSI⟩
      imodintro
      isplitr
      · ipureintro; trivial
      iexact HSI)
    (hQ := fun s h c => (h c).1)

/-- The same run read at the program's buffers: the result array named, each argument array unchanged. -/
theorem run_named : θ_run defs (onTc (τ := τ) (main (F := F))) ⟨m, fun _ => 0, ρ⟩ (fun r => ∀ c : Dev nD,
      r.2.mem ((c.tc : Thread nD τ).loc main_v0) = (dats m 0 c).arrAt 9 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨h c 9,
      (h c 0).trans (((dats m 0 c).arrAt_in 0 rfl _).trans (A_eq m c 0)),
      (h c 4).trans (((dats m 0 c).arrAt_in 4 rfl _).trans (A_eq m c 4)),
      (h c 5).trans (((dats m 0 c).arrAt_in 5 rfl _).trans (A_eq m c 5)),
      (h c 6).trans (((dats m 0 c).arrAt_in 6 rfl _).trans (A_eq m c 6)),
      (h c 7).trans (((dats m 0 c).arrAt_in 7 rfl _).trans (A_eq m c 7)),
      (h c 8).trans (((dats m 0 c).arrAt_in 8 rfl _).trans (A_eq m c 8))⟩) (run_main m ρ)

/-- The frame: the program runs to the end and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run_named m ρ)

end Cert.KernelIdeal.Frame

end
-- ==== Proof.Spec.lean ====
/-
  The result both programs compute, as one function of the argument arrays, index by index, on the extended reals.

  Row `i` of x goes through the two-layer perceptron: hidden unit `n` is tanh (∑ₖ x[i,k]·W1[k,n] + b1[n]), head `j`
  (of four) is ∑ₙ W2[n,j]·hidden[n] + b2[j]. Heads 0 and 1 are the logits of a two-way softmax, whose first
  probability p_d = e^{l0-m} / (e^{l0-m} + e^{l1-m}), m = max l0 l1; head 2 is the location mu and head 3, through
  softplus, the scale s of a log-logistic law. The entry is 0 where u[0,i] ≤ p_d and otherwise the quantile
  exp (mu + s·(log u[1,i] − log1p (0 − u[1,i]))).
-/
import Idealize.ShloMosaic.PureOps.Ideal
import Idealize.ShloMosaic.Lib.ValueIdx

noncomputable section

namespace Cert.Spec

open Idealize.ShloMosaic Idealize.ShloMosaic.ValueIdx

/-- The float zero word's value. -/
abbrev zero : EReal := Ideal.ofBits .f32 0x00000000#32

/-- Hidden unit `n` of a row `xr` of x. -/
def hid (xr : Fin 128 → EReal) (W1 : (⟨2, ![128, 256]⟩ : Shape).Idx → EReal) (B1 : (⟨1, ![256]⟩ : Shape).Idx → EReal)
    (n : Fin 256) : EReal :=
  Ideal.tanh ((∑ k : Fin 128, xr k * W1 (ix2 k n)) + B1 (ix1 n))

/-- Head `j` of the row. -/
def head (xr : Fin 128 → EReal) (W1 : (⟨2, ![128, 256]⟩ : Shape).Idx → EReal) (B1 : (⟨1, ![256]⟩ : Shape).Idx → EReal)
    (W2 : (⟨2, ![256, 4]⟩ : Shape).Idx → EReal) (B2 : (⟨1, ![4]⟩ : Shape).Idx → EReal) (j : Fin 4) : EReal :=
  (∑ n : Fin 256, W2 (ix2 n j) * hid xr W1 B1 n) + B2 (ix1 j)

/-- softplus as jax spells it: `logaddexp x 0`, with its guard `x − 0 ≠ x − 0` (never true on the extended reals). -/
def softplus (x : EReal) : EReal :=
  Scalar.select (Ideal.cmp .one (x - zero) (x - zero)) (x + zero)
    (max x zero + Ideal.log1p (Ideal.exp (zero - max (x - zero) (-(x - zero)))))

/-- The tail of a row: from the four heads and the row's two uniform draws to the entry. -/
def tailv (l0 l1 mu sr p0 p1 : EReal) : EReal :=
  Scalar.select
    (Ideal.cmp .ole p0 (Ideal.div (Ideal.exp (l0 - max l0 l1)) (Ideal.exp (l0 - max l0 l1) + Ideal.exp (l1 - max l0 l1))))
    zero
    (Ideal.exp (mu + softplus sr * (Ideal.log p1 - Ideal.log1p (zero - p1))))

/-- A row's entry from the row of x, the weights and the two draws. -/
def rowOut (xr : Fin 128 → EReal) (W1 : (⟨2, ![128, 256]⟩ : Shape).Idx → EReal) (B1 : (⟨1, ![256]⟩ : Shape).Idx → EReal)
    (W2 : (⟨2, ![256, 4]⟩ : Shape).Idx → EReal) (B2 : (⟨1, ![4]⟩ : Shape).Idx → EReal) (p0 p1 : EReal) : EReal :=
  tailv (head xr W1 B1 W2 B2 0) (head xr W1 B1 W2 B2 1) (head xr W1 B1 W2 B2 2) (head xr W1 B1 W2 B2 3) p0 p1

/-- The whole result array. -/
def G (X : (⟨2, ![16384, 128]⟩ : Shape).Idx → EReal) (W1 : (⟨2, ![128, 256]⟩ : Shape).Idx → EReal)
    (B1 : (⟨1, ![256]⟩ : Shape).Idx → EReal) (W2 : (⟨2, ![256, 4]⟩ : Shape).Idx → EReal) (B2 : (⟨1, ![4]⟩ : Shape).Idx → EReal)
    (U : (⟨2, ![2, 16384]⟩ : Shape).Idx → EReal) : (⟨1, ![16384]⟩ : Shape).Idx → EReal :=
  fun i => rowOut (fun k => X (ix2 (i 0) k)) W1 B1 W2 B2 (U (ix2 (0 : Fin 2) (i 0))) (U (ix2 (1 : Fin 2) (i 0)))

end Cert.Spec

end
-- ==== Proof.KernelIdealPieces.lean ====
/-
  The four pieces the kernel's body stores at a grid point, read at an index on the extended reals: entry `r` of a
  piece is the row function of the spec at row `r` of the piece's x block, the weights, and the two uniform draws
  of that row.

  Two matrix products are read as plain sums (the first contracts the 128 columns of x with the rows of W1; the
  second contracts the 256 rows of W2 with the hidden units of a row, which is the transposed head); the biases are
  a row broadcast down the rows and a column broadcast along the columns; the rest of the body is pointwise.
-/
import proofs.«153425_g74328704025318_cont_9to1c4b_615_8_alg».proof.Proof.KernelIdealFrame
import proofs.«153425_g74328704025318_cont_9to1c4b_615_8_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Pieces

open Idealize.ShloMosaic Idealize.ShloMosaic.TcCoe Idealize.ShloMosaic.ValueIdx Idealize.SL.Sem
open Cert.KernelIdeal Cert.KernelIdeal.Gen Cert.KernelIdeal.Frame

/-! ## The two matrix products as sums -/

local notation "d1" => dot_S1024x128_S128x256_S1024x256_1_0_0_1_n_n
local notation "d2" => dot_S256x4_S1024x256_S4x1024_0_1_1_0_n_n

theorem d1_lhs0 (i : S1024x256.Idx) (q : (d1).contr.Idx) : ((d1).lhsIdx i q 0).val = (i 0).val := by
  unfold DotDims.lhsIdx
  rw [dif_neg (show ¬(0 : Fin S1024x128.rank) ∈ (d1).lhsBatch by decide), dif_pos (show (0 : Fin S1024x128.rank) ∈ (d1).lhsNonContracting by decide)]
  rfl
theorem d1_rhs1 (i : S1024x256.Idx) (q : (d1).contr.Idx) : ((d1).rhsIdx i q 1).val = (i 1).val := by
  unfold DotDims.rhsIdx
  rw [dif_neg (show ¬(1 : Fin S128x256.rank) ∈ (d1).rhsBatch by decide), dif_pos (show (1 : Fin S128x256.rank) ∈ (d1).rhsNonContracting by decide)]
  rfl
theorem d2_lhs1 (i : S4x1024.Idx) (q : (d2).contr.Idx) : ((d2).lhsIdx i q 1).val = (i 0).val := by
  unfold DotDims.lhsIdx
  rw [dif_neg (show ¬(1 : Fin S256x4.rank) ∈ (d2).lhsBatch by decide), dif_pos (show (1 : Fin S256x4.rank) ∈ (d2).lhsNonContracting by decide)]
  rfl
theorem d2_rhs0 (i : S4x1024.Idx) (q : (d2).contr.Idx) : ((d2).rhsIdx i q 0).val = (i 1).val := by
  unfold DotDims.rhsIdx
  rw [dif_neg (show ¬(0 : Fin S1024x256.rank) ∈ (d2).rhsBatch by decide), dif_pos (show (0 : Fin S1024x256.rank) ∈ (d2).rhsNonContracting by decide)]
  rfl

/-- A block of x times W1 into a zero accumulator, at (r, n): the sum over the 128 columns. -/
theorem mm1_apply (x : FVec Ideal S1024x128 .f32) (w : FVec Ideal S128x256 .f32) (r : Fin 1024) (n : Fin 256) :
    matmul d1 none x w (constant (F := Ideal) S1024x256 .f32 0x00000000#32) (ix2 r n) = ∑ k : Fin 128, x (ix2 r k) * w (ix2 k n) := by
  simp only [matmul]
  rw [Ideal.matmul_constant_zero_apply, ← Equiv.sum_comp (contrEquiv1 d1 128 rfl rfl).symm]
  refine Finset.sum_congr rfl fun k _ => ?_
  have hk := contrEquiv1_symm_val d1 128 rfl rfl k
  have el : (d1).lhsIdx (ix2 r n) ((contrEquiv1 d1 128 rfl rfl).symm k) = ix2 r k := funext fun a => Fin.ext (by
    match a with
    | ⟨0, _⟩ => exact d1_lhs0 _ _
    | ⟨1, _⟩ => exact ((d1).lhsIdx_val_of_single rfl _ _).trans hk)
  have er : (d1).rhsIdx (ix2 r n) ((contrEquiv1 d1 128 rfl rfl).symm k) = ix2 k n := funext fun a => Fin.ext (by
    match a with
    | ⟨0, _⟩ => exact ((d1).rhsIdx_val_of_single rfl _ _).trans hk
    | ⟨1, _⟩ => exact d1_rhs1 _ _)
  rw [el, er]

/-- W2 (rows contracted) times the hidden block (columns contracted) into a zero accumulator, at (j, r): the sum over
    the 256 hidden units. -/
theorem mm2_apply (w : FVec Ideal S256x4 .f32) (h : FVec Ideal S1024x256 .f32) (j : Fin 4) (r : Fin 1024) :
    matmul d2 none w h (constant (F := Ideal) S4x1024 .f32 0x00000000#32) (ix2 j r) = ∑ k : Fin 256, w (ix2 k j) * h (ix2 r k) := by
  simp only [matmul]
  rw [Ideal.matmul_constant_zero_apply, ← Equiv.sum_comp (contrEquiv1 d2 256 rfl rfl).symm]
  refine Finset.sum_congr rfl fun k _ => ?_
  have hk := contrEquiv1_symm_val d2 256 rfl rfl k
  have el : (d2).lhsIdx (ix2 j r) ((contrEquiv1 d2 256 rfl rfl).symm k) = ix2 k j := funext fun a => Fin.ext (by
    match a with
    | ⟨0, _⟩ => exact ((d2).lhsIdx_val_of_single rfl _ _).trans hk
    | ⟨1, _⟩ => exact d2_lhs1 _ _)
  have er : (d2).rhsIdx (ix2 j r) ((contrEquiv1 d2 256 rfl rfl).symm k) = ix2 r k := funext fun a => Fin.ext (by
    match a with
    | ⟨0, _⟩ => exact d2_rhs0 _ _
    | ⟨1, _⟩ => exact ((d2).rhsIdx_val_of_single rfl _ _).trans hk)
  rw [el, er]

/-! ## The biases -/

/-- b1 as a row broadcast down 1024 rows. -/
theorem bias1_apply (v2 : Vec Ideal S256 .f32) (r : Fin 1024) (n : Fin 256) :
    broadcastTo S1024x256 (shapeCast S1x256 v2 shapeCasts_S256_S1x256) broadcasts_S1x256_S1024x256 (ix2 r n) = v2 (ix1 n) := by
  rw [broadcastTo_1b_ab_apply, shapeCast_a_1a_apply]

/-- b2 as a column broadcast along 1024 columns. -/
theorem bias2_apply (v3 : Vec Ideal S4 .f32) (j : Fin 4) (r : Fin 1024) :
    broadcastTo S4x1024 (shapeCast S4x1 v3 shapeCasts_S4_S4x1) broadcasts_S4x1_S4x1024 (ix2 j r) = v3 (ix1 j) := by
  rw [broadcastTo_apply _ broadcasts_S4x1_S4x1024 (ix2 j r) (ix2 j (0 : Fin 1)) (fun a => by
    match a with
    | ⟨0, _⟩ => rfl
    | ⟨1, _⟩ => rfl)]
  exact shapeCast_apply v3 shapeCasts_S4_S4x1 _ (ix1 j) (by
    rw [Shape.rowMajor_val_two, Shape.rowMajor_val_one]
    show j.val = j.val * 1 + 0
    omega)

/-! ## The heads of a row -/

theorem hidden_apply (v0 : FVec Ideal S128x256 .f32) (v2 : FVec Ideal S256 .f32) (x : FVec Ideal S1024x128 .f32) (r : Fin 1024) (n : Fin 256) :
    tanh (F := Ideal) (addf (matmul d1 none x v0 (constant (F := Ideal) S1024x256 .f32 0x00000000#32))
      (broadcastTo S1024x256 (shapeCast S1x256 v2 shapeCasts_S256_S1x256) broadcasts_S1x256_S1024x256)) (ix2 r n)
      = Spec.hid (fun k => x (ix2 r k)) v0 v2 n := by
  show Ideal.tanh (matmul d1 none x v0 (constant (F := Ideal) S1024x256 .f32 0x00000000#32) (ix2 r n)
      + broadcastTo S1024x256 (shapeCast S1x256 v2 shapeCasts_S256_S1x256) broadcasts_S1x256_S1024x256 (ix2 r n)) = _
  rw [mm1_apply, bias1_apply]
  rfl

theorem headTerm_apply (v0 : FVec Ideal S128x256 .f32) (v1 : FVec Ideal S256x4 .f32) (v2 : FVec Ideal S256 .f32) (v3 : FVec Ideal S4 .f32)
    (x : FVec Ideal S1024x128 .f32) (j : Fin 4) (r : Fin 1024) :
    addf (matmul d2 none v1 (tanh (F := Ideal) (addf (matmul d1 none x v0 (constant (F := Ideal) S1024x256 .f32 0x00000000#32))
        (broadcastTo S1024x256 (shapeCast S1x256 v2 shapeCasts_S256_S1x256) broadcasts_S1x256_S1024x256))) (constant (F := Ideal) S4x1024 .f32 0x00000000#32))
      (broadcastTo S4x1024 (shapeCast S4x1 v3 shapeCasts_S4_S4x1) broadcasts_S4x1_S4x1024) (ix2 j r)
      = Spec.head (fun k => x (ix2 r k)) v0 v2 v1 v3 j := by
  rw [addf_apply, mm2_apply, bias2_apply]
  unfold Spec.head
  congr 1
  refine Finset.sum_congr rfl fun n _ => ?_
  rw [hidden_apply]

theorem pay3_apply (v0 : Vec Ideal S128x256 .f32) (v1 : Vec Ideal S256x4 .f32) (v2 : Vec Ideal S256 .f32) (v3 : Vec Ideal S4 .f32)
    (x : Vec Ideal S1024x128 .f32) (j : Fin 4) (r : Fin 1024) :
    k0_pay3 v0 v1 v2 v3 x (ix2 j r) = Spec.head (fun k => x (ix2 r k)) v0 v2 v1 v3 j := by
  unfold k0_pay3 k0_pay2
  exact headTerm_apply v0 v1 v2 v3 x j r
theorem pay12_apply (v0 : Vec Ideal S128x256 .f32) (v1 : Vec Ideal S256x4 .f32) (v2 : Vec Ideal S256 .f32) (v3 : Vec Ideal S4 .f32)
    (x : Vec Ideal S1024x128 .f32) (j : Fin 4) (r : Fin 1024) :
    k0_pay12 v0 v1 v2 (k0_pay2 v3) x (ix2 j r) = Spec.head (fun k => x (ix2 r k)) v0 v2 v1 v3 j := by
  unfold k0_pay12 k0_pay2
  exact headTerm_apply v0 v1 v2 v3 x j r
theorem pay20_apply (v0 : Vec Ideal S128x256 .f32) (v1 : Vec Ideal S256x4 .f32) (v2 : Vec Ideal S256 .f32) (v3 : Vec Ideal S4 .f32)
    (x : Vec Ideal S1024x128 .f32) (j : Fin 4) (r : Fin 1024) :
    k0_pay20 v0 v1 v2 (k0_pay2 v3) x (ix2 j r) = Spec.head (fun k => x (ix2 r k)) v0 v2 v1 v3 j := by
  unfold k0_pay20 k0_pay2
  exact headTerm_apply v0 v1 v2 v3 x j r
theorem pay26_apply (v0 : Vec Ideal S128x256 .f32) (v1 : Vec Ideal S256x4 .f32) (v2 : Vec Ideal S256 .f32) (v3 : Vec Ideal S4 .f32)
    (x : Vec Ideal S1024x128 .f32) (j : Fin 4) (r : Fin 1024) :
    k0_pay26 v0 v1 v2 (k0_pay2 v3) x (ix2 j r) = Spec.head (fun k => x (ix2 r k)) v0 v2 v1 v3 j := by
  unfold k0_pay26 k0_pay2
  exact headTerm_apply v0 v1 v2 v3 x j r

/-! ## Rows of a 4 × 1024 or 2 × 1024 array as 1 × 1024 slices -/

theorem slice4_0 (V : FVec Ideal S4x1024 .f32) (h : S4x1024.Slices ![0, 0] S1x1024) (i : S1x1024.Idx) :
    extractStridedSlice S1x1024 ![0, 0] V h i = V (ix2 0 (i 1)) :=
  extractStridedSlice_apply _ V h i _ fun a => by
    match a with
    | ⟨0, _⟩ => have h0 : (i 0).val < 1 := (i 0).isLt; show 0 = 0 + (i 0).val; omega
    | ⟨1, _⟩ => show (i 1).val = 0 + (i 1).val; omega
theorem slice4_1 (V : FVec Ideal S4x1024 .f32) (h : S4x1024.Slices ![1, 0] S1x1024) (i : S1x1024.Idx) :
    extractStridedSlice S1x1024 ![1, 0] V h i = V (ix2 1 (i 1)) :=
  extractStridedSlice_apply _ V h i _ fun a => by
    match a with
    | ⟨0, _⟩ => have h0 : (i 0).val < 1 := (i 0).isLt; show 1 = 1 + (i 0).val; omega
    | ⟨1, _⟩ => show (i 1).val = 0 + (i 1).val; omega
theorem slice4_2 (V : FVec Ideal S4x1024 .f32) (h : S4x1024.Slices ![2, 0] S1x1024) (i : S1x1024.Idx) :
    extractStridedSlice S1x1024 ![2, 0] V h i = V (ix2 2 (i 1)) :=
  extractStridedSlice_apply _ V h i _ fun a => by
    match a with
    | ⟨0, _⟩ => have h0 : (i 0).val < 1 := (i 0).isLt; show 2 = 2 + (i 0).val; omega
    | ⟨1, _⟩ => show (i 1).val = 0 + (i 1).val; omega
theorem slice4_3 (V : FVec Ideal S4x1024 .f32) (h : S4x1024.Slices ![3, 0] S1x1024) (i : S1x1024.Idx) :
    extractStridedSlice S1x1024 ![3, 0] V h i = V (ix2 3 (i 1)) :=
  extractStridedSlice_apply _ V h i _ fun a => by
    match a with
    | ⟨0, _⟩ => have h0 : (i 0).val < 1 := (i 0).isLt; show 3 = 3 + (i 0).val; omega
    | ⟨1, _⟩ => show (i 1).val = 0 + (i 1).val; omega
theorem slice2_0 (V : FVec Ideal S2x1024 .f32) (h : S2x1024.Slices ![0, 0] S1x1024) (i : S1x1024.Idx) :
    extractStridedSlice S1x1024 ![0, 0] V h i = V (ix2 0 (i 1)) :=
  extractStridedSlice_apply _ V h i _ fun a => by
    match a with
    | ⟨0, _⟩ => have h0 : (i 0).val < 1 := (i 0).isLt; show 0 = 0 + (i 0).val; omega
    | ⟨1, _⟩ => show (i 1).val = 0 + (i 1).val; omega
theorem slice2_1 (V : FVec Ideal S2x1024 .f32) (h : S2x1024.Slices ![1, 0] S1x1024) (i : S1x1024.Idx) :
    extractStridedSlice S1x1024 ![1, 0] V h i = V (ix2 1 (i 1)) :=
  extractStridedSlice_apply _ V h i _ fun a => by
    match a with
    | ⟨0, _⟩ => have h0 : (i 0).val < 1 := (i 0).isLt; show 1 = 1 + (i 0).val; omega
    | ⟨1, _⟩ => show (i 1).val = 0 + (i 1).val; omega

/-! ## The four stored pieces at an index -/

theorem piece0_apply (v0 : Vec Ideal S128x256 .f32) (v1 : Vec Ideal S256x4 .f32) (v2 : Vec Ideal S256 .f32) (v3 : Vec Ideal S4 .f32)
    (x : Vec Ideal S1024x128 .f32) (u : Vec Ideal S2x1024 .f32) (r : Fin 1024) :
    piece0 v0 v1 v2 v3 x u (ix1 r)
      = Spec.rowOut (fun k => x (ix2 r k)) v0 v2 v1 v3 (u (ix2 (0 : Fin 2) r)) (u (ix2 (1 : Fin 2) r)) := by
  simp only [piece0, k0_pay11]
  rw [shapeCast_1a_a_apply]
  simp only [k0_pay4, k0_pay5, k0_pay6, k0_pay7, k0_pay8, k0_pay9, k0_pay10]
  show Spec.tailv
      (extractStridedSlice S1x1024 ![0, 0] (k0_pay3 v0 v1 v2 v3 x) slices_S4x1024_o0_0_S1x1024 (ix2 0 r))
      (extractStridedSlice S1x1024 ![1, 0] (k0_pay3 v0 v1 v2 v3 x) slices_S4x1024_o1_0_S1x1024 (ix2 0 r))
      (extractStridedSlice S1x1024 ![2, 0] (k0_pay3 v0 v1 v2 v3 x) slices_S4x1024_o2_0_S1x1024 (ix2 0 r))
      (extractStridedSlice S1x1024 ![3, 0] (k0_pay3 v0 v1 v2 v3 x) slices_S4x1024_o3_0_S1x1024 (ix2 0 r))
      (extractStridedSlice S1x1024 ![0, 0] u slices_S2x1024_o0_0_S1x1024 (ix2 0 r))
      (extractStridedSlice S1x1024 ![1, 0] u slices_S2x1024_o1_0_S1x1024 (ix2 0 r)) = _
  rw [slice4_0, slice4_1, slice4_2, slice4_3, slice2_0, slice2_1]
  simp only [pay3_apply]
  rfl

theorem piece1_apply (v0 : Vec Ideal S128x256 .f32) (v1 : Vec Ideal S256x4 .f32) (v2 : Vec Ideal S256 .f32) (v3 : Vec Ideal S4 .f32)
    (x : Vec Ideal S1024x128 .f32) (u : Vec Ideal S2x1024 .f32) (r : Fin 1024) :
    piece1 v0 v1 v2 v3 x u (ix1 r)
      = Spec.rowOut (fun k => x (ix2 r k)) v0 v2 v1 v3 (u (ix2 (0 : Fin 2) r)) (u (ix2 (1 : Fin 2) r)) := by
  simp only [piece1, k0_pay19]
  rw [shapeCast_1a_a_apply]
  simp only [k0_pay13, k0_pay14, k0_pay15, k0_pay16, k0_pay17, k0_pay18]
  show Spec.tailv
      (extractStridedSlice S1x1024 ![0, 0] (k0_pay12 v0 v1 v2 (k0_pay2 v3) x) slices_S4x1024_o0_0_S1x1024 (ix2 0 r))
      (extractStridedSlice S1x1024 ![1, 0] (k0_pay12 v0 v1 v2 (k0_pay2 v3) x) slices_S4x1024_o1_0_S1x1024 (ix2 0 r))
      (extractStridedSlice S1x1024 ![2, 0] (k0_pay12 v0 v1 v2 (k0_pay2 v3) x) slices_S4x1024_o2_0_S1x1024 (ix2 0 r))
      (extractStridedSlice S1x1024 ![3, 0] (k0_pay12 v0 v1 v2 (k0_pay2 v3) x) slices_S4x1024_o3_0_S1x1024 (ix2 0 r))
      (extractStridedSlice S1x1024 ![0, 0] u slices_S2x1024_o0_0_S1x1024 (ix2 0 r))
      (extractStridedSlice S1x1024 ![1, 0] u slices_S2x1024_o1_0_S1x1024 (ix2 0 r)) = _
  rw [slice4_0, slice4_1, slice4_2, slice4_3, slice2_0, slice2_1]
  simp only [pay12_apply]
  rfl

theorem piece2_apply (v0 : Vec Ideal S128x256 .f32) (v1 : Vec Ideal S256x4 .f32) (v2 : Vec Ideal S256 .f32) (v3 : Vec Ideal S4 .f32)
    (x : Vec Ideal S1024x128 .f32) (u : Vec Ideal S2x1024 .f32) (r : Fin 1024) :
    piece2 v0 v1 v2 v3 x u (ix1 r)
      = Spec.rowOut (fun k => x (ix2 r k)) v0 v2 v1 v3 (u (ix2 (0 : Fin 2) r)) (u (ix2 (1 : Fin 2) r)) := by
  simp only [piece2, k0_pay25]
  rw [shapeCast_1a_a_apply]
  simp only [k0_pay21, k0_pay22, k0_pay23, k0_pay24]
  show Spec.tailv
      (extractStridedSlice S1x1024 ![0, 0] (k0_pay20 v0 v1 v2 (k0_pay2 v3) x) slices_S4x1024_o0_0_S1x1024 (ix2 0 r))
      (extractStridedSlice S1x1024 ![1, 0] (k0_pay20 v0 v1 v2 (k0_pay2 v3) x) slices_S4x1024_o1_0_S1x1024 (ix2 0 r))
      (extractStridedSlice S1x1024 ![2, 0] (k0_pay20 v0 v1 v2 (k0_pay2 v3) x) slices_S4x1024_o2_0_S1x1024 (ix2 0 r))
      (extractStridedSlice S1x1024 ![3, 0] (k0_pay20 v0 v1 v2 (k0_pay2 v3) x) slices_S4x1024_o3_0_S1x1024 (ix2 0 r))
      (extractStridedSlice S1x1024 ![0, 0] u slices_S2x1024_o0_0_S1x1024 (ix2 0 r))
      (extractStridedSlice S1x1024 ![1, 0] u slices_S2x1024_o1_0_S1x1024 (ix2 0 r)) = _
  rw [slice4_0, slice4_1, slice4_2, slice4_3, slice2_0, slice2_1]
  simp only [pay20_apply]
  rfl

theorem piece3_apply (v0 : Vec Ideal S128x256 .f32) (v1 : Vec Ideal S256x4 .f32) (v2 : Vec Ideal S256 .f32) (v3 : Vec Ideal S4 .f32)
    (x : Vec Ideal S1024x128 .f32) (u : Vec Ideal S2x1024 .f32) (r : Fin 1024) :
    piece3 v0 v1 v2 v3 x u (ix1 r)
      = Spec.rowOut (fun k => x (ix2 r k)) v0 v2 v1 v3 (u (ix2 (0 : Fin 2) r)) (u (ix2 (1 : Fin 2) r)) := by
  simp only [piece3, k0_pay1]
  rw [shapeCast_1a_a_apply]
  simp only [k0_pay27, k0_pay29, k0_pay31, k0_pay32, k0_pay33, k0_pay30, k0_pay28]
  show Spec.tailv
      (extractStridedSlice S1x1024 ![0, 0] (k0_pay26 v0 v1 v2 (k0_pay2 v3) x) slices_S4x1024_o0_0_S1x1024 (ix2 0 r))
      (extractStridedSlice S1x1024 ![1, 0] (k0_pay26 v0 v1 v2 (k0_pay2 v3) x) slices_S4x1024_o1_0_S1x1024 (ix2 0 r))
      (extractStridedSlice S1x1024 ![2, 0] (k0_pay26 v0 v1 v2 (k0_pay2 v3) x) slices_S4x1024_o2_0_S1x1024 (ix2 0 r))
      (extractStridedSlice S1x1024 ![3, 0] (k0_pay26 v0 v1 v2 (k0_pay2 v3) x) slices_S4x1024_o3_0_S1x1024 (ix2 0 r))
      (extractStridedSlice S1x1024 ![0, 0] u slices_S2x1024_o0_0_S1x1024 (ix2 0 r))
      (extractStridedSlice S1x1024 ![1, 0] u slices_S2x1024_o1_0_S1x1024 (ix2 0 r)) = _
  rw [slice4_0, slice4_1, slice4_2, slice4_3, slice2_0, slice2_1]
  simp only [pay26_apply]
  rfl

end Cert.KernelIdeal.Pieces

end
-- ==== Proof.KernelIdealFinal.lean ====
/-
  What the kernel's result array holds after the run, on the extended reals: the spec's function of the argument
  arrays, at every index.

  At grid point `t` the output block covers rows 4096·t … 4096·t + 4095, stored in four pieces of 1024 rows; piece
  `k` is computed from x window `k`'s block, which is rows (4t + k)·1024 … of x — the same rows —, from the whole
  W1, b1, W2, b2, and from columns 4096·t + 1024·k … of u. So each piece is the spec's function restricted to its
  rows, the four pieces tile the block, and the four blocks tile the array.
-/
import proofs.«153425_g74328704025318_cont_9to1c4b_615_8_alg».proof.Proof.KernelIdealRun
import proofs.«153425_g74328704025318_cont_9to1c4b_615_8_alg».proof.Proof.KernelIdealPieces
import Idealize.ShloMosaic.Lib.Pipeline.Value

set_option maxRecDepth 16384

noncomputable section

namespace Cert.KernelIdeal.Final

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Frame Cert.KernelIdeal.Pieces

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a; rfl

/-! ## The printed index maps, decided over the grid -/

theorem idxw0 : ∀ t : Fin cfg0.N, win0_0.index t (0 : Fin 2) = 4 * t.val + 0 ∧ win0_0.index t (1 : Fin 2) = 0 :=
  (by decide +kernel : ∀ t : Fin grid0.N, _)
theorem idxw1 : ∀ t : Fin cfg0.N, win0_1.index t (0 : Fin 2) = 4 * t.val + 1 ∧ win0_1.index t (1 : Fin 2) = 0 :=
  (by decide +kernel : ∀ t : Fin grid0.N, _)
theorem idxw2 : ∀ t : Fin cfg0.N, win0_2.index t (0 : Fin 2) = 4 * t.val + 2 ∧ win0_2.index t (1 : Fin 2) = 0 :=
  (by decide +kernel : ∀ t : Fin grid0.N, _)
theorem idxw3 : ∀ t : Fin cfg0.N, win0_3.index t (0 : Fin 2) = 4 * t.val + 3 ∧ win0_3.index t (1 : Fin 2) = 0 :=
  (by decide +kernel : ∀ t : Fin grid0.N, _)
theorem idxw4 : ∀ t : Fin cfg0.N, win0_4.index t (0 : Fin 2) = 0 ∧ win0_4.index t (1 : Fin 2) = 0 :=
  (by decide +kernel : ∀ t : Fin grid0.N, _)
theorem idxw5 : ∀ t : Fin cfg0.N, win0_5.index t (0 : Fin 1) = 0 :=
  (by decide +kernel : ∀ t : Fin grid0.N, _)
theorem idxw6 : ∀ t : Fin cfg0.N, win0_6.index t (0 : Fin 2) = 0 ∧ win0_6.index t (1 : Fin 2) = 0 :=
  (by decide +kernel : ∀ t : Fin grid0.N, _)
theorem idxw7 : ∀ t : Fin cfg0.N, win0_7.index t (0 : Fin 1) = 0 :=
  (by decide +kernel : ∀ t : Fin grid0.N, _)
theorem idxw8 : ∀ t : Fin cfg0.N, win0_8.index t (0 : Fin 2) = 0 ∧ win0_8.index t (1 : Fin 2) = t.val :=
  (by decide +kernel : ∀ t : Fin grid0.N, _)
theorem idxw9 : ∀ t : Fin cfg0.N, win0_9.index t (0 : Fin 1) = t.val :=
  (by decide +kernel : ∀ t : Fin grid0.N, _)

/-! ## The weights' and biases' windows hold the whole arrays at every point -/

theorem blk4 (c : Dev nD) (t : Fin cfg0.N) : iblk m c 4 t = V m c main_arg1 := by
  funext j
  show V m c main_arg1 (((cfg0.win 4).blk t).view.emb j) = V m c main_arg1 j
  obtain ⟨e0, e1⟩ := idxw4 t
  refine congrArg _ (funext fun a => Fin.ext ?_)
  match a with
  | ⟨0, _⟩ => show win0_4.index t (0 : Fin 2) * 128 + 1 * (j 0).val = (j 0).val; omega
  | ⟨1, _⟩ => show win0_4.index t (1 : Fin 2) * 256 + 1 * (j 1).val = (j 1).val; omega
theorem blk5 (c : Dev nD) (t : Fin cfg0.N) : iblk m c 5 t = V m c main_arg2 := by
  funext j
  show V m c main_arg2 (((cfg0.win 5).blk t).view.emb j) = V m c main_arg2 j
  have e0 := idxw5 t
  refine congrArg _ (funext fun a => Fin.ext ?_)
  match a with
  | ⟨0, _⟩ => show win0_5.index t (0 : Fin 1) * 256 + 1 * (j 0).val = (j 0).val; omega
theorem blk6 (c : Dev nD) (t : Fin cfg0.N) : iblk m c 6 t = V m c main_arg3 := by
  funext j
  show V m c main_arg3 (((cfg0.win 6).blk t).view.emb j) = V m c main_arg3 j
  obtain ⟨e0, e1⟩ := idxw6 t
  refine congrArg _ (funext fun a => Fin.ext ?_)
  match a with
  | ⟨0, _⟩ => show win0_6.index t (0 : Fin 2) * 256 + 1 * (j 0).val = (j 0).val; omega
  | ⟨1, _⟩ => show win0_6.index t (1 : Fin 2) * 4 + 1 * (j 1).val = (j 1).val; omega
theorem blk7 (c : Dev nD) (t : Fin cfg0.N) : iblk m c 7 t = V m c main_arg4 := by
  funext j
  show V m c main_arg4 (((cfg0.win 7).blk t).view.emb j) = V m c main_arg4 j
  have e0 := idxw7 t
  refine congrArg _ (funext fun a => Fin.ext ?_)
  match a with
  | ⟨0, _⟩ => show win0_7.index t (0 : Fin 1) * 4 + 1 * (j 0).val = (j 0).val; omega

/-! ## Each stored piece is the spec's function on its rows -/

/-- The spec's function of the arrays as the call finds them. -/
abbrev GV (c : Dev nD) : S16384.Idx → EReal :=
  Spec.G (V m c main_arg0) (V m c main_arg1) (V m c main_arg2) (V m c main_arg3) (V m c main_arg4) (V m c main_arg5)

theorem piece0_G (c : Dev nD) (t : Fin cfg0.N) (r : Fin 1024) :
    piece0 (View.ld (iblk m c 4 t) rW1) (View.ld (iblk m c 6 t) rW2) (View.ld (iblk m c 5 t) rB1) (View.ld (iblk m c 7 t) rB2)
        (View.ld (iblk m c 0 t) rX) (View.ld (iblk m c 8 t) rU0) (ix1 r)
      = GV m c (((cfg0.win 9).blk t).view.emb (rO0.emb (ix1 r))) := by
  rw [piece0_apply]
  simp only [View.ld_unit_zero (S := S128x256) hz2, View.ld_unit_zero (S := S256x4) hz2, View.ld_unit_zero (S := S256) hz1,
    View.ld_unit_zero (S := S4) hz1, View.ld_unit_zero (S := S1024x128) hz2, blk4, blk5, blk6, blk7]
  have ex : ∀ kk : Fin 128, iblk m c 0 t (ix2 r kk)
      = V m c main_arg0 (ix2 ((((cfg0.win 9).blk t).view.emb (rO0.emb (ix1 r))) 0) kk) := fun kk => by
    show V m c main_arg0 (((cfg0.win 0).blk t).view.emb (ix2 r kk)) = _
    refine congrArg _ (funext fun a => Fin.ext ?_)
    obtain ⟨e0, e1⟩ := idxw0 t
    have e9 := idxw9 t
    match a with
    | ⟨0, _⟩ => show win0_0.index t (0 : Fin 2) * 1024 + 1 * r.val = win0_9.index t (0 : Fin 1) * 4096 + 1 * (0 + 1 * r.val); omega
    | ⟨1, _⟩ => show win0_0.index t (1 : Fin 2) * 128 + 1 * kk.val = kk.val; omega
  have eu : ∀ a : Fin 2, View.ld (iblk m c 8 t) rU0 (ix2 a r)
      = V m c main_arg5 (ix2 a ((((cfg0.win 9).blk t).view.emb (rO0.emb (ix1 r))) 0)) := fun a => by
    show V m c main_arg5 (((cfg0.win 8).blk t).view.emb (rU0.emb (ix2 a r))) = _
    refine congrArg _ (funext fun b => Fin.ext ?_)
    obtain ⟨e0, e1⟩ := idxw8 t
    have e9 := idxw9 t
    match b with
    | ⟨0, _⟩ => show win0_8.index t (0 : Fin 2) * 2 + 1 * (0 + 1 * a.val) = a.val; omega
    | ⟨1, _⟩ => show win0_8.index t (1 : Fin 2) * 4096 + 1 * (0 + 1 * r.val) = win0_9.index t (0 : Fin 1) * 4096 + 1 * (0 + 1 * r.val); omega
  simp only [ex, eu]
  rfl

theorem piece1_G (c : Dev nD) (t : Fin cfg0.N) (r : Fin 1024) :
    piece1 (View.ld (iblk m c 4 t) rW1) (View.ld (iblk m c 6 t) rW2) (View.ld (iblk m c 5 t) rB1) (View.ld (iblk m c 7 t) rB2)
        (View.ld (iblk m c 1 t) rX) (View.ld (iblk m c 8 t) rU1) (ix1 r)
      = GV m c (((cfg0.win 9).blk t).view.emb (rO1.emb (ix1 r))) := by
  rw [piece1_apply]
  simp only [View.ld_unit_zero (S := S128x256) hz2, View.ld_unit_zero (S := S256x4) hz2, View.ld_unit_zero (S := S256) hz1,
    View.ld_unit_zero (S := S4) hz1, View.ld_unit_zero (S := S1024x128) hz2, blk4, blk5, blk6, blk7]
  have ex : ∀ kk : Fin 128, iblk m c 1 t (ix2 r kk)
      = V m c main_arg0 (ix2 ((((cfg0.win 9).blk t).view.emb (rO1.emb (ix1 r))) 0) kk) := fun kk => by
    show V m c main_arg0 (((cfg0.win 1).blk t).view.emb (ix2 r kk)) = _
    refine congrArg _ (funext fun a => Fin.ext ?_)
    obtain ⟨e0, e1⟩ := idxw1 t
    have e9 := idxw9 t
    match a with
    | ⟨0, _⟩ => show win0_1.index t (0 : Fin 2) * 1024 + 1 * r.val = win0_9.index t (0 : Fin 1) * 4096 + 1 * (1024 + 1 * r.val); omega
    | ⟨1, _⟩ => show win0_1.index t (1 : Fin 2) * 128 + 1 * kk.val = kk.val; omega
  have eu : ∀ a : Fin 2, View.ld (iblk m c 8 t) rU1 (ix2 a r)
      = V m c main_arg5 (ix2 a ((((cfg0.win 9).blk t).view.emb (rO1.emb (ix1 r))) 0)) := fun a => by
    show V m c main_arg5 (((cfg0.win 8).blk t).view.emb (rU1.emb (ix2 a r))) = _
    refine congrArg _ (funext fun b => Fin.ext ?_)
    obtain ⟨e0, e1⟩ := idxw8 t
    have e9 := idxw9 t
    match b with
    | ⟨0, _⟩ => show win0_8.index t (0 : Fin 2) * 2 + 1 * (0 + 1 * a.val) = a.val; omega
    | ⟨1, _⟩ => show win0_8.index t (1 : Fin 2) * 4096 + 1 * (1024 + 1 * r.val) = win0_9.index t (0 : Fin 1) * 4096 + 1 * (1024 + 1 * r.val); omega
  simp only [ex, eu]
  rfl

theorem piece2_G (c : Dev nD) (t : Fin cfg0.N) (r : Fin 1024) :
    piece2 (View.ld (iblk m c 4 t) rW1) (View.ld (iblk m c 6 t) rW2) (View.ld (iblk m c 5 t) rB1) (View.ld (iblk m c 7 t) rB2)
        (View.ld (iblk m c 2 t) rX) (View.ld (iblk m c 8 t) rU2) (ix1 r)
      = GV m c (((cfg0.win 9).blk t).view.emb (rO2.emb (ix1 r))) := by
  rw [piece2_apply]
  simp only [View.ld_unit_zero (S := S128x256) hz2, View.ld_unit_zero (S := S256x4) hz2, View.ld_unit_zero (S := S256) hz1,
    View.ld_unit_zero (S := S4) hz1, View.ld_unit_zero (S := S1024x128) hz2, blk4, blk5, blk6, blk7]
  have ex : ∀ kk : Fin 128, iblk m c 2 t (ix2 r kk)
      = V m c main_arg0 (ix2 ((((cfg0.win 9).blk t).view.emb (rO2.emb (ix1 r))) 0) kk) := fun kk => by
    show V m c main_arg0 (((cfg0.win 2).blk t).view.emb (ix2 r kk)) = _
    refine congrArg _ (funext fun a => Fin.ext ?_)
    obtain ⟨e0, e1⟩ := idxw2 t
    have e9 := idxw9 t
    match a with
    | ⟨0, _⟩ => show win0_2.index t (0 : Fin 2) * 1024 + 1 * r.val = win0_9.index t (0 : Fin 1) * 4096 + 1 * (2048 + 1 * r.val); omega
    | ⟨1, _⟩ => show win0_2.index t (1 : Fin 2) * 128 + 1 * kk.val = kk.val; omega
  have eu : ∀ a : Fin 2, View.ld (iblk m c 8 t) rU2 (ix2 a r)
      = V m c main_arg5 (ix2 a ((((cfg0.win 9).blk t).view.emb (rO2.emb (ix1 r))) 0)) := fun a => by
    show V m c main_arg5 (((cfg0.win 8).blk t).view.emb (rU2.emb (ix2 a r))) = _
    refine congrArg _ (funext fun b => Fin.ext ?_)
    obtain ⟨e0, e1⟩ := idxw8 t
    have e9 := idxw9 t
    match b with
    | ⟨0, _⟩ => show win0_8.index t (0 : Fin 2) * 2 + 1 * (0 + 1 * a.val) = a.val; omega
    | ⟨1, _⟩ => show win0_8.index t (1 : Fin 2) * 4096 + 1 * (2048 + 1 * r.val) = win0_9.index t (0 : Fin 1) * 4096 + 1 * (2048 + 1 * r.val); omega
  simp only [ex, eu]
  rfl

theorem piece3_G (c : Dev nD) (t : Fin cfg0.N) (r : Fin 1024) :
    piece3 (View.ld (iblk m c 4 t) rW1) (View.ld (iblk m c 6 t) rW2) (View.ld (iblk m c 5 t) rB1) (View.ld (iblk m c 7 t) rB2)
        (View.ld (iblk m c 3 t) rX) (View.ld (iblk m c 8 t) rU3) (ix1 r)
      = GV m c (((cfg0.win 9).blk t).view.emb (rO3.emb (ix1 r))) := by
  rw [piece3_apply]
  simp only [View.ld_unit_zero (S := S128x256) hz2, View.ld_unit_zero (S := S256x4) hz2, View.ld_unit_zero (S := S256) hz1,
    View.ld_unit_zero (S := S4) hz1, View.ld_unit_zero (S := S1024x128) hz2, blk4, blk5, blk6, blk7]
  have ex : ∀ kk : Fin 128, iblk m c 3 t (ix2 r kk)
      = V m c main_arg0 (ix2 ((((cfg0.win 9).blk t).view.emb (rO3.emb (ix1 r))) 0) kk) := fun kk => by
    show V m c main_arg0 (((cfg0.win 3).blk t).view.emb (ix2 r kk)) = _
    refine congrArg _ (funext fun a => Fin.ext ?_)
    obtain ⟨e0, e1⟩ := idxw3 t
    have e9 := idxw9 t
    match a with
    | ⟨0, _⟩ => show win0_3.index t (0 : Fin 2) * 1024 + 1 * r.val = win0_9.index t (0 : Fin 1) * 4096 + 1 * (3072 + 1 * r.val); omega
    | ⟨1, _⟩ => show win0_3.index t (1 : Fin 2) * 128 + 1 * kk.val = kk.val; omega
  have eu : ∀ a : Fin 2, View.ld (iblk m c 8 t) rU3 (ix2 a r)
      = V m c main_arg5 (ix2 a ((((cfg0.win 9).blk t).view.emb (rO3.emb (ix1 r))) 0)) := fun a => by
    show V m c main_arg5 (((cfg0.win 8).blk t).view.emb (rU3.emb (ix2 a r))) = _
    refine congrArg _ (funext fun b => Fin.ext ?_)
    obtain ⟨e0, e1⟩ := idxw8 t
    have e9 := idxw9 t
    match b with
    | ⟨0, _⟩ => show win0_8.index t (0 : Fin 2) * 2 + 1 * (0 + 1 * a.val) = a.val; omega
    | ⟨1, _⟩ => show win0_8.index t (1 : Fin 2) * 4096 + 1 * (3072 + 1 * r.val) = win0_9.index t (0 : Fin 1) * 4096 + 1 * (3072 + 1 * r.val); omega
  simp only [ex, eu]
  rfl

/-! ## From the pieces to the block, from the blocks to the array -/

/-- What grid point `t` writes back is block `t` of the spec's function. -/
theorem flushed_eq (c : Dev nD) (t : Fin cfg0.N) :
    (dats m 0 c).flushed 9 t = ((cfg0.win 9).blk t).view.read (Elt Ideal) (GV m c) := by
  show (cfg0.win 9).cut (grid0.coords t) ((dats m 0 c).after 9 t) = _
  rw [after0_9]
  funext y
  show out0_9 (F := Ideal) _ _ _ _ _ _ _ _ _ y = GV m c (((cfg0.win 9).blk t).view.emb y)
  unfold out0_9
  refine View.canon_apply_of_pieces (Val := Elt Ideal) (fun y => GV m c (((cfg0.win 9).blk t).view.emb y)) _ ?_ y (cover0_9 _ _ _ _ y)
  intro p hp x
  simp only [List.mem_cons, List.mem_singleton, List.not_mem_nil, or_false] at hp
  rcases hp with rfl | rfl | rfl | rfl
  · obtain ⟨r, rfl⟩ : ∃ r : Fin 1024, x = ix1 r := ⟨x 0, eq_ix1 x⟩
    exact piece3_G m c t r
  · obtain ⟨r, rfl⟩ : ∃ r : Fin 1024, x = ix1 r := ⟨x 0, eq_ix1 x⟩
    exact piece2_G m c t r
  · obtain ⟨r, rfl⟩ : ∃ r : Fin 1024, x = ix1 r := ⟨x 0, eq_ix1 x⟩
    exact piece1_G m c t r
  · obtain ⟨r, rfl⟩ : ∃ r : Fin 1024, x = ix1 r := ⟨x 0, eq_ix1 x⟩
    exact piece0_G m c t r

theorem mem_blk9 (t : Fin cfg0.N) (i : S16384.Idx) :
    i ∈ ((cfg0.win 9).blk t).view.set ↔ ∀ a : Fin 1, win0_9.index t a * S4096.size a ≤ (i a).val
      ∧ (i a).val < win0_9.index t a * S4096.size a + S4096.size a := by
  show i ∈ ((View.whole main_v0).slice (win0_9.rect t)).set ↔ _
  rw [View.set_slice_whole, Rect.mem_set_unit]
  exact Iff.rfl

/-- Every row is in some grid point's block: row `i` in block `i / 4096`. -/
theorem covered (i : S16384.Idx) : ∃ t : Fin cfg0.N, (cfg0.win 9).flush t = true ∧ i ∈ ((cfg0.win 9).blk t).view.set := by
  have hi : (i 0).val < 16384 := (i 0).isLt
  have hN := N_0
  refine ⟨⟨(i 0).val / 4096, by show (i 0).val / 4096 < grid0.N; omega⟩, flush0_9 _, ?_⟩
  rw [mem_blk9]
  intro a
  have e9 := idxw9 ⟨(i 0).val / 4096, by show (i 0).val / 4096 < grid0.N; omega⟩
  match a with
  | ⟨0, _⟩ =>
    show win0_9.index _ (0 : Fin 1) * 4096 ≤ (i 0).val ∧ (i 0).val < win0_9.index _ (0 : Fin 1) * 4096 + 4096
    rw [e9]
    show (i 0).val / 4096 * 4096 ≤ (i 0).val ∧ (i 0).val < (i 0).val / 4096 * 4096 + 4096
    omega

/-- The result array after the run. -/
theorem final (c : Dev nD) : (dats m 0 c).arrAt 9 cfg0.N = GV m c :=
  (dats m 0 c).arrAt_eq_of_cover 9 (GV m c) (fun t _ => flushed_eq m c t) (covered)

/-- The run of the kernel program on the extended reals: it terminates, the result array holds the spec's function
    of the argument arrays, the argument arrays are unchanged. -/
theorem run : θ_run defs (onTc (τ := τ) (main (F := Ideal))) ⟨m, fun _ => 0, ρ⟩ (fun r => ∀ c : Dev nD,
      r.2.mem ((c.tc : Thread nD τ).loc main_v0)
        = Spec.G (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (final m c), (h c).2⟩) (run_named m ρ)

end Cert.KernelIdeal.Final

end
-- ==== Proof.RefValue.lean ====
/-
  The reference program's result is the spec's function of the arguments, index by index, on the extended reals.

  The reference computes the perceptron as h·W2 where the spec has W2·h under the sum (products commute); its
  softmax takes the row maximum as a fold from −∞ joined once more with −∞, and the normaliser as 0 + (e0 + e1);
  where the spec subtracts from zero the reference negates. Nothing here needs the inputs finite.
-/
import proofs.«153425_g74328704025318_cont_9to1c4b_615_8_alg».proof.Proof.Gen.ReferenceIdeal.Read
import proofs.«153425_g74328704025318_cont_9to1c4b_615_8_alg».proof.Proof.Spec
import Idealize.ShloMosaic.Lib.ValueIdx
import Idealize.ShloMosaic.PureOps.Reduce
import Idealize.ShloMosaic.PureOps.Ideal.Laws

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx Idealize.SL.Sem

/-! ## Small laws on the extended reals -/

theorem negInf : Ideal.ofBits .f32 0xFF800000#32 = (⊥ : EReal) := by simp [Ideal.ofBits, Ideal.ieee]

theorem fold_max_two (b : EReal) (g : Fin 2 → EReal) : (Finset.univ : Finset (Fin 2)).fold max b g = max (g 0) (max (g 1) b) := by
  rw [show (Finset.univ : Finset (Fin 2)) = insert 0 {1} from by decide, Finset.fold_insert (by decide), Finset.fold_singleton]

/-! ## The perceptron -/

theorem hid_ref (X : (⟨S16384x128, .f32⟩ : BufTy).Contents (Elt Ideal)) (W1 : (⟨S128x256, .f32⟩ : BufTy).Contents (Elt Ideal)) (B1 : (⟨S256, .f32⟩ : BufTy).Contents (Elt Ideal)) (r : Fin 16384) (n : Fin 256) :
    val_main_v4 (F := Ideal) X W1 B1 (ix2 r n) = Spec.hid (fun k => X (ix2 r k)) W1 B1 n := by
  rw [val_main_v4_apply, val_main_v3_apply, val_main_v0_apply, val_main_v2_apply, val_main_v1_apply]
  have e1 : ∀ k : Fin 128, lidx_main_v0 (ix2 r n) k = ix2 r k := fun k => funext fun a => by
    match a with | ⟨0, _⟩ => rfl | ⟨1, _⟩ => rfl
  have e2 : ∀ k : Fin 128, ridx_main_v0 (ix2 r n) k = ix2 k n := fun k => funext fun a => by
    match a with | ⟨0, _⟩ => rfl | ⟨1, _⟩ => rfl
  have e3 : idx_main_v1 (idx_main_v2 (ix2 r n)) = ix1 n := funext fun a => by
    match a with | ⟨0, _⟩ => rfl
  simp only [e1, e2, e3]
  rfl

theorem head_ref (X : (⟨S16384x128, .f32⟩ : BufTy).Contents (Elt Ideal)) (W1 : (⟨S128x256, .f32⟩ : BufTy).Contents (Elt Ideal)) (B1 : (⟨S256, .f32⟩ : BufTy).Contents (Elt Ideal)) (W2 : (⟨S256x4, .f32⟩ : BufTy).Contents (Elt Ideal)) (B2 : (⟨S4, .f32⟩ : BufTy).Contents (Elt Ideal)) (r : Fin 16384) (j : Fin 4) :
    val_main_v8 (F := Ideal) X W1 B1 W2 B2 (ix2 r j) = Spec.head (fun k => X (ix2 r k)) W1 B1 W2 B2 j := by
  rw [val_main_v8_apply, val_main_v5_apply, val_main_v7_apply, val_main_v6_apply]
  have e1 : ∀ k : Fin 256, lidx_main_v5 (ix2 r j) k = ix2 r k := fun k => funext fun a => by
    match a with | ⟨0, _⟩ => rfl | ⟨1, _⟩ => rfl
  have e2 : ∀ k : Fin 256, ridx_main_v5 (ix2 r j) k = ix2 k j := fun k => funext fun a => by
    match a with | ⟨0, _⟩ => rfl | ⟨1, _⟩ => rfl
  have e3 : idx_main_v6 (idx_main_v7 (ix2 r j)) = ix1 j := funext fun a => by
    match a with | ⟨0, _⟩ => rfl
  unfold Spec.head
  show (∑ k : Fin 256, val_main_v4 (F := Ideal) X W1 B1 (lidx_main_v5 (ix2 r j) k) * W2 (ridx_main_v5 (ix2 r j) k))
      + B2 (idx_main_v6 (idx_main_v7 (ix2 r j))) = _
  rw [e3]
  congr 1
  refine Finset.sum_congr rfl fun n _ => ?_
  rw [e1, e2, hid_ref, mul_comm]

/-- The two logits of row `r`. -/
theorem logit_ref (X : (⟨S16384x128, .f32⟩ : BufTy).Contents (Elt Ideal)) (W1 : (⟨S128x256, .f32⟩ : BufTy).Contents (Elt Ideal)) (B1 : (⟨S256, .f32⟩ : BufTy).Contents (Elt Ideal)) (W2 : (⟨S256x4, .f32⟩ : BufTy).Contents (Elt Ideal)) (B2 : (⟨S4, .f32⟩ : BufTy).Contents (Elt Ideal)) (r : Fin 16384) (a : Fin 2) :
    val_main_v9 (F := Ideal) X W1 B1 W2 B2 (ix2 r a) = Spec.head (fun k => X (ix2 r k)) W1 B1 W2 B2 ⟨a.val, by omega⟩ := by
  rw [val_main_v9_apply]
  have e : idx_main_v9 (ix2 r a) = ix2 r (⟨a.val, by omega⟩ : Fin 4) := funext fun b => by
    match b with | ⟨0, _⟩ => rfl | ⟨1, _⟩ => rfl
  rw [e, head_ref]

/-- The location and the raw scale of row `r`. -/
theorem dist_ref (X : (⟨S16384x128, .f32⟩ : BufTy).Contents (Elt Ideal)) (W1 : (⟨S128x256, .f32⟩ : BufTy).Contents (Elt Ideal)) (B1 : (⟨S256, .f32⟩ : BufTy).Contents (Elt Ideal)) (W2 : (⟨S256x4, .f32⟩ : BufTy).Contents (Elt Ideal)) (B2 : (⟨S4, .f32⟩ : BufTy).Contents (Elt Ideal)) (r : Fin 16384) (a : Fin 2) :
    val_main_v10 (F := Ideal) X W1 B1 W2 B2 (ix2 r a) = Spec.head (fun k => X (ix2 r k)) W1 B1 W2 B2 ⟨2 + a.val, by omega⟩ := by
  rw [val_main_v10_apply]
  have e : idx_main_v10 (ix2 r a) = ix2 r (⟨2 + a.val, by omega⟩ : Fin 4) := funext fun b => by
    match b with | ⟨0, _⟩ => rfl | ⟨1, _⟩ => rfl
  rw [e, head_ref]

/-! ## The softmax -/

theorem rowmax_ref (X : (⟨S16384x128, .f32⟩ : BufTy).Contents (Elt Ideal)) (W1 : (⟨S128x256, .f32⟩ : BufTy).Contents (Elt Ideal)) (B1 : (⟨S256, .f32⟩ : BufTy).Contents (Elt Ideal)) (W2 : (⟨S256x4, .f32⟩ : BufTy).Contents (Elt Ideal)) (B2 : (⟨S4, .f32⟩ : BufTy).Contents (Elt Ideal)) (r : Fin 16384) :
    val_main_v13 (F := Ideal) X W1 B1 W2 B2 (ix1 r) = (max (Spec.head (fun k => X (ix2 r k)) W1 B1 W2 B2 0) (Spec.head (fun k => X (ix2 r k)) W1 B1 W2 B2 1)) := by
  rw [val_main_v13_apply, val_main_v12_apply, val_main_cst_0_apply]
  unfold val_main_v11
  have hR : S16384x2.Reduces [1] S16384 := by decide
  rw [Host.reduce_eq_fold_single FloatOps.maximumf _ _ reducesTo_S16384x2_S16384_d1 hR h_S_]
  have e : (val_main_v9 (F := Ideal) X W1 B1 W2 B2 ∘ hR.lift (ix1 r)) = fun k : Fin 2 => val_main_v9 (F := Ideal) X W1 B1 W2 B2 (ix2 r k) :=
    funext fun k => congrArg (val_main_v9 (F := Ideal) X W1 B1 W2 B2) (funext fun a => Fin.ext (by
      match a with | ⟨0, _⟩ => rfl | ⟨1, _⟩ => rfl))
  rw [e]
  show max (Ideal.ofBits .f32 0xFF800000#32) ((Finset.univ : Finset (Fin 2)).fold max (Ideal.ofBits .f32 0xFF800000#32)
    (fun k : Fin 2 => val_main_v9 (F := Ideal) X W1 B1 W2 B2 (ix2 r k))) = _
  rw [fold_max_two, logit_ref, logit_ref, negInf, max_bot_left, max_bot_right]
  rfl

/-- e^{l_a − m} for the two logits. -/
theorem expo_ref (X : (⟨S16384x128, .f32⟩ : BufTy).Contents (Elt Ideal)) (W1 : (⟨S128x256, .f32⟩ : BufTy).Contents (Elt Ideal)) (B1 : (⟨S256, .f32⟩ : BufTy).Contents (Elt Ideal)) (W2 : (⟨S256x4, .f32⟩ : BufTy).Contents (Elt Ideal)) (B2 : (⟨S4, .f32⟩ : BufTy).Contents (Elt Ideal)) (r : Fin 16384) (a : Fin 2) :
    val_main_v17 (F := Ideal) X W1 B1 W2 B2 (ix2 r a)
      = Ideal.exp (Spec.head (fun k => X (ix2 r k)) W1 B1 W2 B2 ⟨a.val, by omega⟩ - (max (Spec.head (fun k => X (ix2 r k)) W1 B1 W2 B2 0) (Spec.head (fun k => X (ix2 r k)) W1 B1 W2 B2 1))) := by
  rw [val_main_v17_apply, val_main_v16_apply, val_main_v15_apply, val_main_v14_apply]
  have e : idx_main_v14 (idx_main_v15 (ix2 r a)) = ix1 r := funext fun b => by
    match b with | ⟨0, _⟩ => rfl
  rw [e, rowmax_ref, logit_ref]
  rfl

theorem zadd (a : EReal) : Spec.zero + a = a := by
  show Ideal.ofBits .f32 0x00000000#32 + a = a
  rw [Ideal.ofBits_zero_f32, zero_add]

theorem zsub (a : EReal) : Spec.zero - a = -a := by
  show Ideal.ofBits .f32 0x00000000#32 - a = -a
  rw [Ideal.ofBits_zero_f32, sub_eq_add_neg, zero_add]

/-- The first softmax probability of row `r`. -/
theorem prob_ref (X : (⟨S16384x128, .f32⟩ : BufTy).Contents (Elt Ideal)) (W1 : (⟨S128x256, .f32⟩ : BufTy).Contents (Elt Ideal)) (B1 : (⟨S256, .f32⟩ : BufTy).Contents (Elt Ideal)) (W2 : (⟨S256x4, .f32⟩ : BufTy).Contents (Elt Ideal)) (B2 : (⟨S4, .f32⟩ : BufTy).Contents (Elt Ideal)) (r : Fin 16384) :
    val_main_v23 (F := Ideal) X W1 B1 W2 B2 (ix1 r)
      = Ideal.div (Ideal.exp ((Spec.head (fun k => X (ix2 r k)) W1 B1 W2 B2 0) - (max (Spec.head (fun k => X (ix2 r k)) W1 B1 W2 B2 0) (Spec.head (fun k => X (ix2 r k)) W1 B1 W2 B2 1)))) (Ideal.exp ((Spec.head (fun k => X (ix2 r k)) W1 B1 W2 B2 0) - (max (Spec.head (fun k => X (ix2 r k)) W1 B1 W2 B2 0) (Spec.head (fun k => X (ix2 r k)) W1 B1 W2 B2 1))) + Ideal.exp ((Spec.head (fun k => X (ix2 r k)) W1 B1 W2 B2 1) - (max (Spec.head (fun k => X (ix2 r k)) W1 B1 W2 B2 0) (Spec.head (fun k => X (ix2 r k)) W1 B1 W2 B2 1)))) := by
  rw [val_main_v23_apply, val_main_v22_apply]
  have e0 : idx_main_v22 (idx_main_v23 (ix1 r)) = ix2 r (0 : Fin 2) := funext fun b => Fin.ext (by
    match b with
    | ⟨0, _⟩ => show r.val / 1 = r.val; omega
    | ⟨1, _⟩ => rfl)
  rw [e0, val_main_v21_apply, val_main_v20_apply, val_main_v19_apply]
  have e1 : idx_main_v19 (idx_main_v20 (ix2 r (0 : Fin 2))) = ix1 r := funext fun b => by
    match b with | ⟨0, _⟩ => rfl
  rw [e1, val_main_v18_apply, val_main_cst_1_apply, Fin.sum_univ_two]
  have e2 : ∀ k : Fin 2, idx_main_v18 (ix1 r) k = ix2 r k := fun k => funext fun b => by
    match b with | ⟨0, _⟩ => rfl | ⟨1, _⟩ => rfl
  rw [e2, e2, expo_ref, expo_ref]
  show Ideal.div _ (Spec.zero + _) = _
  rw [zadd]
  rfl

/-! ## The two draws, the location, the scale -/

theorem draw0_ref (U : (⟨S2x16384, .f32⟩ : BufTy).Contents (Elt Ideal)) (r : Fin 16384) : val_main_v25 (F := Ideal) U (ix1 r) = U (ix2 (0 : Fin 2) r) := by
  rw [val_main_v25_apply, val_main_v24_apply]
  refine congrArg U (funext fun b => Fin.ext ?_)
  have hr := r.isLt
  match b with
  | ⟨0, _⟩ => rfl
  | ⟨1, _⟩ => show r.val % 16384 = r.val; omega

theorem draw1_ref (U : (⟨S2x16384, .f32⟩ : BufTy).Contents (Elt Ideal)) (r : Fin 16384) : val_main_v27 (F := Ideal) U (ix1 r) = U (ix2 (1 : Fin 2) r) := by
  rw [val_main_v27_apply, val_main_v26_apply]
  refine congrArg U (funext fun b => Fin.ext ?_)
  have hr := r.isLt
  match b with
  | ⟨0, _⟩ => rfl
  | ⟨1, _⟩ => show r.val % 16384 = r.val; omega

theorem loc_ref (X : (⟨S16384x128, .f32⟩ : BufTy).Contents (Elt Ideal)) (W1 : (⟨S128x256, .f32⟩ : BufTy).Contents (Elt Ideal)) (B1 : (⟨S256, .f32⟩ : BufTy).Contents (Elt Ideal)) (W2 : (⟨S256x4, .f32⟩ : BufTy).Contents (Elt Ideal)) (B2 : (⟨S4, .f32⟩ : BufTy).Contents (Elt Ideal)) (r : Fin 16384) : val_main_v30 (F := Ideal) X W1 B1 W2 B2 (ix1 r) = (Spec.head (fun k => X (ix2 r k)) W1 B1 W2 B2 2) := by
  rw [val_main_v30_apply, val_main_v29_apply]
  have e : idx_main_v29 (idx_main_v30 (ix1 r)) = ix2 r (0 : Fin 2) := funext fun b => Fin.ext (by
    match b with
    | ⟨0, _⟩ => show r.val / 1 = r.val; omega
    | ⟨1, _⟩ => rfl)
  rw [e, dist_ref]
  rfl

theorem scale_ref (X : (⟨S16384x128, .f32⟩ : BufTy).Contents (Elt Ideal)) (W1 : (⟨S128x256, .f32⟩ : BufTy).Contents (Elt Ideal)) (B1 : (⟨S256, .f32⟩ : BufTy).Contents (Elt Ideal)) (W2 : (⟨S256x4, .f32⟩ : BufTy).Contents (Elt Ideal)) (B2 : (⟨S4, .f32⟩ : BufTy).Contents (Elt Ideal)) (r : Fin 16384) : val_main_v32 (F := Ideal) X W1 B1 W2 B2 (ix1 r) = (Spec.head (fun k => X (ix2 r k)) W1 B1 W2 B2 3) := by
  rw [val_main_v32_apply, val_main_v31_apply]
  have e : idx_main_v31 (idx_main_v32 (ix1 r)) = ix2 r (1 : Fin 2) := funext fun b => Fin.ext (by
    match b with
    | ⟨0, _⟩ => show r.val / 1 = r.val; omega
    | ⟨1, _⟩ => rfl)
  rw [e, dist_ref]
  rfl

/-- softplus of the raw scale. -/
theorem softplus_ref (X : (⟨S16384x128, .f32⟩ : BufTy).Contents (Elt Ideal)) (W1 : (⟨S128x256, .f32⟩ : BufTy).Contents (Elt Ideal)) (B1 : (⟨S256, .f32⟩ : BufTy).Contents (Elt Ideal)) (W2 : (⟨S256x4, .f32⟩ : BufTy).Contents (Elt Ideal)) (B2 : (⟨S4, .f32⟩ : BufTy).Contents (Elt Ideal)) (r : Fin 16384) : val_main_v33 (F := Ideal) X W1 B1 W2 B2 (ix1 r) = Spec.softplus (Spec.head (fun k => X (ix2 r k)) W1 B1 W2 B2 3) := by
  rw [val_main_v33_apply, val_main_call0_v4_apply, val_main_call0_v6_apply, val_main_call0_v11_apply, val_main_call0_v1_apply,
    val_main_call0_v10_apply, val_main_call0_v9_apply, val_main_call0_v8_apply, val_main_call0_v7_apply, val_main_call0_v3_apply,
    val_main_call0_v0_apply, val_main_call0_v2_apply, val_main_call0_v5_apply, val_main_call0_cst_apply, scale_ref]
  unfold Spec.softplus
  show Scalar.select (Ideal.cmp .une (_ - Spec.zero) (_ - Spec.zero)) (_ + Spec.zero)
    (max _ Spec.zero + Ideal.log1p (Ideal.exp (-(max (_ - Spec.zero) (-(_ - Spec.zero)))))) = _
  rw [zsub]
  rfl

/-! ## The result -/

theorem ref_eq (X : (⟨S16384x128, .f32⟩ : BufTy).Contents (Elt Ideal)) (W1 : (⟨S128x256, .f32⟩ : BufTy).Contents (Elt Ideal)) (B1 : (⟨S256, .f32⟩ : BufTy).Contents (Elt Ideal)) (W2 : (⟨S256x4, .f32⟩ : BufTy).Contents (Elt Ideal)) (B2 : (⟨S4, .f32⟩ : BufTy).Contents (Elt Ideal)) (U : (⟨S2x16384, .f32⟩ : BufTy).Contents (Elt Ideal)) : val_main_v42 (F := Ideal) X W1 B1 W2 B2 U = Spec.G X W1 B1 W2 B2 U := by
  funext i
  obtain ⟨r, rfl⟩ : ∃ r : Fin 16384, i = ix1 r := ⟨i 0, eq_ix1 i⟩
  rw [val_main_v42_apply, val_main_v28_apply, val_main_v41_apply, val_main_cst_2_apply, val_main_v40_apply, val_main_v39_apply,
    val_main_v38_apply, val_main_v37_apply, val_main_v36_apply, val_main_v35_apply, val_main_v34_apply,
    draw0_ref, draw1_ref, prob_ref, loc_ref, softplus_ref]
  unfold Spec.G Spec.rowOut Spec.tailv
  show Scalar.select _ Spec.zero (Ideal.exp (_ + _ * (Ideal.log _ - Ideal.log1p (-_)))) = _
  rw [zsub]
  rfl

end Cert.ReferenceIdeal.RefValue

end
-- ==== Proof.lean ====
/-
  The kernel against its reference, on the extended reals.

  Both programs take a batch x of 16384 rows of 128 features through a two-layer perceptron (tanh hidden layer of
  256 units, four heads), read heads 0 and 1 as the logits of a two-way softmax, head 2 as the location and the
  softplus of head 3 as the scale of a log-logistic law, and return per row 0 where the first uniform draw is at most
  the first softmax probability and otherwise the law's quantile at the second draw.

  The kernel walks the rows in four grid points of 4096 rows, each point in four sub-blocks of 1024 rows read through
  four windows onto the same array x, and computes the heads transposed (W2ᵀ·hᵀ). On the extended reals that is the
  same function of the arguments as the reference's: products commute, a matrix product is the same sum whatever the
  tiling, the maximum of two numbers is their fold from −∞, a sum from 0 is the sum, and 0 − a = −a. No step needs
  the inputs finite.

  The three frames: each kernel program's run is proved from its body's triple, the four windows on x holding a
  quarter share of the array each; the reference is a straight line of host operations.
-/
import proofs.«153425_g74328704025318_cont_9to1c4b_615_8_alg».proof.Defs
import proofs.«153425_g74328704025318_cont_9to1c4b_615_8_alg».proof.Proof.Gen.Kernel
import proofs.«153425_g74328704025318_cont_9to1c4b_615_8_alg».proof.Proof.Gen.KernelIdeal
import proofs.«153425_g74328704025318_cont_9to1c4b_615_8_alg».proof.Proof.Gen.ReferenceIdeal
import proofs.«153425_g74328704025318_cont_9to1c4b_615_8_alg».proof.Proof.Gen.Pre_finite_inputs
import proofs.«153425_g74328704025318_cont_9to1c4b_615_8_alg».proof.Proof.KernelRun
import proofs.«153425_g74328704025318_cont_9to1c4b_615_8_alg».proof.Proof.KernelIdealFinal
import proofs.«153425_g74328704025318_cont_9to1c4b_615_8_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Frame.frame m ρ

theorem frame_ki : Cert.frame_KernelIdeal := fun m ρ _ => Cert.KernelIdeal.Frame.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end with the result array at the spec's function of the (agreeing) argument arrays. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v42_eq, Cert.ReferenceIdeal.RefValue.ref_eq, (hagree c).1, (hagree c).2.1, (hagree c).2.2.1,
    (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
